-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192 : S_.BroadcastsInDim S8192 (![] : Fin 0 → Fin S8192.rank)
  reducesTo_S8192_S_d0 : S8192.ReducesTo [0] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : FVec F S8192 .f32) (main_arg2 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S8192 : Shape := ⟨1, ![8192]⟩
abbrev S64 : Shape := ⟨1, ![64]⟩
abbrev S1x64 : Shape := ⟨2, ![1, 64]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S1024x64 : Shape := ⟨2, ![1024, 64]⟩
abbrev S1024x1 : Shape := ⟨2, ![1024, 1]⟩
abbrev S1x1024 : Shape := ⟨2, ![1, 1024]⟩
abbrev S64x1024 : Shape := ⟨2, ![64, 1024]⟩
abbrev S1024x1024 : Shape := ⟨2, ![1024, 1024]⟩
abbrev S1024 : Shape := ⟨1, ![1024]⟩
abbrev S1 : Shape := ⟨1, ![1]⟩

abbrev nBuf : Space → Nat
  | .hbm => 17
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S8192, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .bf16⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x1, .f32⟩
  | .hbm, ⟨14, _⟩ => ⟨S1x8192, .f32⟩
  | .hbm, ⟨15, _⟩ => ⟨S1x1, .f32⟩
  | .hbm, ⟨16, _⟩ => ⟨S_, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v66 : BitVec 1 := Scalar.cmpi .eq arg0 c7_i32
  let arg1 : BitVec 32 := BitVec.ofNat 32 (i 1).val
  let c7_i32_30 : BitVec 32 := 7#32
  let v67 : BitVec 1 := Scalar.cmpi .eq arg1 c7_i32_30
  let v68 : BitVec 1 := Scalar.andi v66 v67
  let v69 : BitVec 32 := Scalar.extui v68
  let c0_i32_31 : BitVec 32 := 0#32
  let v70 : BitVec 1 := Scalar.cmpi .ne v69 c0_i32_31
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bitsLt_bf16_f32 : FTy.bits .bf16 < FTy.bits .f32
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v4) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x64 : Shape := ⟨2, ![8192, 64]⟩
abbrev S8192 : Shape := ⟨1, ![8192]⟩
abbrev S64 : Shape := ⟨1, ![64]⟩
abbrev S1x64 : Shape := ⟨2, ![1, 64]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S8192x2 : Shape := ⟨2, ![8192, 2]⟩

abbrev nBuf : Space → Nat
  | .hbm => 64
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S64x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x1, .i32⟩
  | .hbm, ⟨44, _⟩ => ⟨S8192x2, .i32⟩
  | .hbm, ⟨45, _⟩ => ⟨S_, .f32⟩
  | .hbm, ⟨46, _⟩ => ⟨S8192, .f32⟩
  | .hbm, ⟨47, _⟩ => ⟨S8192x8192, .f32⟩
  | .hbm, ⟨48, _⟩ => ⟨S8192x1, .f32⟩
  | .hbm, ⟨49, _⟩ => ⟨S1x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  reducesTo_S8192x8192_S_d0_1 : S8192x8192.ReducesTo [0, 1] S_
  dot_S8192x64_S64x8192_S8192x8192_1_0_0_1_n_n_wf : DotDims.WF S8192x64 S64x8192 S8192x8192 [1] [0] [0] [1] [] []
  scatter_S8192x8192_S8192x2_S8192_n_01_01_1_wf : ScatterDims.WF S8192x8192 S8192x2 S8192 [] [0, 1] [0, 1] 1

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.WordPoints.lean ====
/-
  The grid of the pairwise-kernel reduction has 64 points, visited in row-major order of the 8 × 8 tiles.  Two
  accumulator cells are cleared at the first point, added to at every point, and read out into the result cell at
  the last point only.  This file fixes, over the grid, when each of the two conditionals of the body is taken
  (the first point; the last point), where the result window is idle, and the entry valuation of the buffers
  after the host operations that precede the launch.
-/
import proofs.«130531_j39487929319478_1_alg».proof.Proof.Gen.Kernel.Launch
import proofs.«130531_j39487929319478_1_alg».proof.Proof.Gen.Kernel.Skeleton
import proofs.«130531_j39487929319478_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The buffers of core `c` when the launch is reached: after the twelve host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the launch, the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The two conditionals of the body, over the grid -/

/-- The accumulators are cleared exactly when both tile coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg0.N, condFirst (grid0.coords t) ↔ t.val = 0 :=
  (by decide +kernel : ∀ t : Fin grid0.N, condFirst (grid0.coords t) ↔ t.val = 0)

/-- The result is written exactly when both tile coordinates are seven. -/
abbrev condLast (i : grid0.Coords) : Prop := k0_cond2 i = 1#1
theorem condLast_iff : ∀ t : Fin cfg0.N, condLast (grid0.coords t) ↔ t.val = 63 :=
  (by decide +kernel : ∀ t : Fin grid0.N, condLast (grid0.coords t) ↔ t.val = 63)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last point the result window is idle and is not written back. -/
theorem idle6 : ∀ t : Fin cfg0.N, ¬condLast (grid0.coords t) → cfg0.idle 6 (grid0.coords t) = true := by decide +kernel
theorem noFlush6 : ∀ t : Fin cfg0.N, ¬condLast (grid0.coords t) → (cfg0.win 6).flush t = false := by decide +kernel
/-- At the last point it is live. -/
theorem live6 : ∀ t : Fin cfg0.N, condLast (grid0.coords t) → cfg0.idle 6 (grid0.coords t) = false := by decide +kernel

/-! ## The memrefs the body is called with -/

abbrev ms0 (t : Fin cfg0.N) : Memref sig .tc .vmem S1024x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
/-- The two accumulator cells. -/
abbrev accN : Memref sig .tc .vmem S1x1 .f32 := Memref.whole cc0_scratch0
abbrev accD : Memref sig .tc .vmem S1x1 .f32 := Memref.whole cc0_scratch1

/-- The core's scoped buffers outside the staging buffers are the two accumulator cells, each at some contents. -/
theorem scopedRest_cells (c : Dev nD) :
    (Pipeline.scopedRest (Ix := Unit) (Name := ℕ) (U := UR sig nD τ) (Lvl := ℕ) (Val := Elt F) spec0 c : sProp 𝕄)
      = iprop((∃ d, owns (c : Thread nD τ) accN fullShare d) ∗ (∃ d, owns (c : Thread nD τ) accD fullShare d)) := by
  rw [scopedRest0_eq]; simp only [accN, accD, owns_whole]; try rfl

end Cert.Kernel.Gen

end
-- ==== Proof.WordRunFirst.lean ====
/-
  The body of the pairwise-kernel reduction run at the first point: the two cells are cleared, then this tile's two sums are added.
  On whole memrefs holding the six input blocks, the result cell and the two accumulator cells, the body runs to the end,
  hands the inputs back as they were, and leaves in each cell it stored into the list of pieces stored (last first).
-/
import proofs.«130531_j39487929319478_1_alg».proof.Proof.WordPoints

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i)
    (x0 : Vec F S1024x64 .bf16) (x1 : Vec F S1024x64 .bf16) (x2 : Vec F S1024x1 .f32) (x3 : Vec F S1x1024 .f32) (x4 : Vec F S1024x1 .f32) (x5 : Vec F S1x1024 .f32) :
    Σ' (LS0 : List (View.Piece (Elt F) S1x1 .f32)), { LS1 : List (View.Piece (Elt F) S1x1 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kta_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__kta_kernel_eq_skeleton]; unfold cc0__kta_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Gen

end
-- ==== Proof.WordRunMiddle.lean ====
/-
  The body of the pairwise-kernel reduction run at a point that is neither first nor last: this tile's two sums are added to the two cells.
  On whole memrefs holding the six input blocks, the result cell and the two accumulator cells, the body runs to the end,
  hands the inputs back as they were, and leaves in each cell it stored into the list of pieces stored (last first).
-/
import proofs.«130531_j39487929319478_1_alg».proof.Proof.WordRunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i)
    (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    Σ' (LS0 : List (View.Piece (Elt F) S1x1 .f32)), { LS1 : List (View.Piece (Elt F) S1x1 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kta_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__kta_kernel_eq_skeleton]; unfold cc0__kta_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Gen

end
-- ==== Proof.WordRunLast.lean ====
/-
  The body of the pairwise-kernel reduction run at the last point: this tile's two sums are added, then the result cell is written from the two totals.
  On whole memrefs holding the six input blocks, the result cell and the two accumulator cells, the body runs to the end,
  hands the inputs back as they were, and leaves in each cell it stored into the list of pieces stored (last first).
-/
import proofs.«130531_j39487929319478_1_alg».proof.Proof.WordRunMiddle

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i)
    (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    Σ' (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kta_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__kta_kernel_eq_skeleton]; unfold cc0__kta_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Gen

end
-- ==== Proof.LibSharedCarriedTail.lean ====
/-
  The frame run of a pipeline kernel whose input windows may SHARE an array and whose body CARRIES state between grid
  points, for an @main that goes on after the region with straight lines of host operations.

  One region on a static grid; the kernel has no semaphore or transfer of its own.  Several input windows may read one
  array, so the arrays are not pairwise distinct and the region's exit holds each window's array at that window's
  share.  The proof data's invariant is any family of propositions over the points: the certificate says how the
  core's scoped buffers that are no staging buffer, each at some contents, give the invariant before the first point
  (`hin`) and how the invariant after the last point gives them back (`hout`) — so a scratch accumulator may be held
  at named contents in between.  The lines after the region run within a set `S` of whole buffers at the full share:
  the certificate says how the exit's holdings yield `S` at a valuation `W` beside a remainder `R` the lines do not
  touch (`hexit`), and how `S` at the lines' result and `R` give the arrays back, with the bypassing buffers at the
  contents `V'` (`hback`).  Under those entailments, the entry split of the shared arrays, the body obligation and
  the shape of @main, every weakly fair execution terminates without fault, every array of the pipeline ends at what
  the proof data compute and every other unscoped buffer at `V'`.
-/
import Idealize.ShloMosaic.Lib.Pipeline.FrameSuffix

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN WITH SHARED INPUT ARRAYS, A CARRIED INVARIANT AND LINES AFTER THE REGION.  `hsplit`: how the buffers
    behind the arrays make the proof data's arrays at entry; `hin` / `hout`: the scoped rest into the invariant before
    the first point and out of the invariant after the last; `hexit` / `hback`: the lines' buffers `S` out of, and
    back into, the region's exit holdings.  Concludes `FramePost` at the contents `V'` after the lines. -/
theorem θ_run_frame_shared_carried_around (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V V' : (c : Dev nD) → (b : Ref sig .tc) → Buf Val ((c.tc : Thread nD τ).loc b))
    (opss : List (List (HloOp τ sig Val)))
    (hmain : HMainK (Ix := Unit) (Name := ℕ) (U := UR sig nD τ) (Lvl := ℕ) cfgs p defs₀ 𝒱₀ m main V
      (fun _ => chain (opss.map StableHlo.seq)))
    (hsplit : ∀ c, (arrBufs (Ix := Unit) (Name := ℕ) (U := UR sig nD τ) (Lvl := ℕ) (cfgs p).spec c (V c) : sProp 𝕄)
      ⊢ (dats p c).arrays ((dats p c).arrAt · 0))
    (hin : ∀ c, (scopedRest (Ix := Unit) (Name := ℕ) (U := UR sig nD τ) (Lvl := ℕ) (Val := Val) (cfgs p).spec c : sProp 𝕄)
      ⊢ (dats p c).Φ 0)
    (hout : ∀ c, (dats p c).Φ (Fin.last (cfgs p).N)
      ⊢ (scopedRest (Ix := Unit) (Name := ℕ) (U := UR sig nD τ) (Lvl := ℕ) (Val := Val) (cfgs p).spec c : sProp 𝕄))
    (S : Finset (DevRef τ sig)) (W : Dev nD → Valuation τ sig Val) (R : Dev nD → sProp 𝕄)
    (hsub : ∀ ops ∈ opss, ∀ op ∈ ops, op.bufs ⊆ S) (hfresh : ∀ ops ∈ opss, ∀ op ∈ ops, op.fresh = ∅)
    (hexit : ∀ c, iprop((dats p c).arrays ((dats p c).arrAt · (cfgs p).N)
          ∗ unscopedRest (Ix := Unit) (Name := ℕ) (U := UR sig nD τ) (Lvl := ℕ) (cfgs p).spec c (V c))
        ⊢ iprop((StableHlo.held (c.tc : Thread nD τ) S (W c) : sProp 𝕄) ∗ R c))
    (hback : ∀ c, iprop((StableHlo.held (c.tc : Thread nD τ) S (StableHlo.after opss.flatten (W c)) : sProp 𝕄) ∗ R c)
        ⊢ iprop((dats p c).arrays ((dats p c).arrAt · (cfgs p).N)
          ∗ unscopedRest (Ix := Unit) (Name := ℕ) (U := UR sig nD τ) (Lvl := ℕ) (cfgs p).spec c (V' c))) :
    θ_run (Pipeline.defs (fun q => Cfg.toPCfg (Val := Val) (cfgs q)) defs₀) (onTc main) (s₀ m g) (FramePost cfgs dats p V') := by
  classical
  exact θ_run_region_noSem_pf_tail (fun q => (cfgs q).toPCfg) (fun q => (cfgs q).toPCfg_adm) dats () hinj p hw (PreFacts.none _) emb₁
    defs₀ 𝒱₀ m g main (fun _ => chain (opss.map StableHlo.seq)) hbody hne harr hstage howed
    (u₀ := initOf (cells cfgs hinj) (launchToks cfgs hinj)) (hu₀ := .rfl)
    (V := V) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (V c))
    (Z' := fun c => unscopedRest (Ix := Unit) (Name := ℕ) (U := UR sig nD τ) (Lvl := ℕ) (cfgs p).spec c (V' c))
    (hX := fun c => by
      rw [unscopedRestP_none]
      iintro HU
      isplitr; · iempintro
      iexact HU)
    (hin := fun c => by
      iintro ⟨-, -, Hr⟩
      iapply (hin c)
      iexact Hr)
    (hout := fun c => by
      iintro Hr
      isplitr; · iempintro
      iapply (hout c)
      iexact Hr)
    (htail := fun c Q' => (sep_mono .rfl (sep_mono .rfl (hexit c))).trans (by
      rw [← List.append_nil (opss.map StableHlo.seq)]
      iintro ⟨Hk, Hb, Hh, HR⟩
      iapply (wp_seqs_then (fun q => (cfgs q).toPCfg (Val := Val)) defs₀ 𝒱₀ c S [] opss hsub hfresh (W c)) $$ [Hb Hh]
      · isplitl [Hb]; · iexact Hb
        iexact Hh
      iintro ⟨-, Hh⟩
      rw [chain_nil, wp_pure]
      imodintro
      iapply Hk
      iapply (hback c)
      isplitl [Hh]; · iexact Hh
      iexact HR))
    (QY := fun c s => ∀ b ∈ restRefs sig (cfgs p).spec, s.mem ((c.tc : Thread nD τ).loc b) = V' c b)
    (hY := fun c s' => by
      iintro ⟨-, HU, HSI⟩
      unfold unscopedRest
      imodintro
      iapply (pointsTo_read_all (restRefs sig (cfgs p).spec) (fun b => (c.tc : Thread nD τ).loc b) (V' c) s')
      isplitl [HU] <;> iassumption)
    (hQ := fun s h c => ⟨(h c).1, (h c).2.2⟩)

end Idealize.ShloMosaic.Pipeline

end
-- ==== Proof.WordCarried.lean ====
/-
  The frame of the pairwise-kernel reduction: every weakly fair execution ends, nothing faults, and the arrays end
  where the proof data say.  The two accumulator cells are carried from point to point: before the first point they
  hold anything, after point n they hold what the case of point n left in them, computed from what point n - 1 left.
  The result cell is idle until the last point, which stores into it.  The two windows that read the one scaled-input
  array each hold half of it.
-/
import proofs.«130531_j39487929319478_1_alg».proof.Proof.WordRunLast
import proofs.«130531_j39487929319478_1_alg».proof.Proof.LibSharedCarriedTail

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two accumulator cells and one staging buffer of the result cell, as views through which contents are stated. -/
abbrev VN : View sig .tc .vmem S1x1 .f32 := accN.view
abbrev VD : View sig .tc .vmem S1x1 .f32 := accD.view
abbrev VO : View sig .tc .vmem S1x1 .f32 := (Memref.whole cc0_stg6_0 : Memref sig .tc .vmem S1x1 .f32).view

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pieces stored into the first accumulator cell cover it. -/
theorem coverNFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (y : S1x1.Idx) : ∃ pc ∈ (runFirst c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).1 S1x1.size (by sl_kernel_rfl) y
/-- The pieces stored into the second accumulator cell cover it. -/
theorem coverDFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (y : S1x1.Idx) : ∃ pc ∈ (runFirst c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).2.1 S1x1.size (by sl_kernel_rfl) y
/-- What the two cells hold afterwards. -/
def cellNFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) : Vec F S1x1 .f32 := VN.read (Elt F) (VN.writes (Elt F) VN.junk (runFirst c i arg2 harg2 arg3 harg3 arg4 harg4 arg5 harg5 arg6 harg6 arg7 harg7 arg8 harg8 arg9 harg9 arg10 harg10 hc0 hc1 x0 x1 x2 x3 x4 x5).1)
def cellDFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) : Vec F S1x1 .f32 := VD.read (Elt F) (VD.writes (Elt F) VD.junk (runFirst c i arg2 harg2 arg3 harg3 arg4 harg4 arg5 harg5 arg6 harg6 arg7 harg7 arg8 harg8 arg9 harg9 arg10 harg10 hc0 hc1 x0 x1 x2 x3 x4 x5).2.1)

/-- The pieces stored into the first accumulator cell cover it. -/
theorem coverNMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runMiddle c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 x5 xs0 xs1).1 S1x1.size (by sl_kernel_rfl) y
/-- The pieces stored into the second accumulator cell cover it. -/
theorem coverDMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runMiddle c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 x5 xs0 xs1).2.1 S1x1.size (by sl_kernel_rfl) y
/-- What the two cells hold afterwards. -/
def cellNMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VN.read (Elt F) (VN.writes (Elt F) VN.junk (runMiddle c i arg2 harg2 arg3 harg3 arg4 harg4 arg5 harg5 arg6 harg6 arg7 harg7 arg8 harg8 arg9 harg9 arg10 harg10 hc0 hc1 x0 x1 x2 x3 x4 x5 xs0 xs1).1)
def cellDMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VD.read (Elt F) (VD.writes (Elt F) VD.junk (runMiddle c i arg2 harg2 arg3 harg3 arg4 harg4 arg5 harg5 arg6 harg6 arg7 harg7 arg8 harg8 arg9 harg9 arg10 harg10 hc0 hc1 x0 x1 x2 x3 x4 x5 xs0 xs1).2.1)

/-- The pieces stored into the first accumulator cell cover it. -/
theorem coverNLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runLast c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.1 S1x1.size (by sl_kernel_rfl) y
/-- The pieces stored into the second accumulator cell cover it. -/
theorem coverDLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runLast c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.2.1 S1x1.size (by sl_kernel_rfl) y
/-- What the two cells hold afterwards. -/
def cellNLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VN.read (Elt F) (VN.writes (Elt F) VN.junk (runLast c i arg2 harg2 arg3 harg3 arg4 harg4 arg5 harg5 arg6 harg6 arg7 harg7 arg8 harg8 arg9 harg9 arg10 harg10 hc0 hc1 x0 x1 x2 x3 x4 x5 xs0 xs1).2.1)
def cellDLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VD.read (Elt F) (VD.writes (Elt F) VD.junk (runLast c i arg2 harg2 arg3 harg3 arg4 harg4 arg5 harg5 arg6 harg6 arg7 harg7 arg8 harg8 arg9 harg9 arg10 harg10 hc0 hc1 x0 x1 x2 x3 x4 x5 xs0 xs1).2.2.1)

/-- The pieces the last point stores into the result cell cover it. -/
theorem coverOLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runLast c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).1 S1x1.size (by sl_kernel_rfl) y
/-- What the last point leaves in the result cell. -/
def outLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VO.read (Elt F) (VO.writes (Elt F) VO.junk (runLast c i arg2 harg2 arg3 harg3 arg4 harg4 arg5 harg5 arg6 harg6 arg7 harg7 arg8 harg8 arg9 harg9 arg10 harg10 hc0 hc1 x0 x1 x2 x3 x4 x5 xs0 xs1).1)
/-- A placeholder for the result cell's staging buffer at the points that leave it idle: nothing consults it. -/
def outIdle : Vec F S1x1 .f32 := VO.read (Elt F) VO.junk

/-! ## What the result cell and the two accumulator cells hold after each point -/

def outsAt (c : Dev nD) : (n : ℕ) → n < cfg0.N → Vec F S1x1 .f32 × Vec F S1x1 .f32 × Vec F S1x1 .f32
  | 0, hn => (outIdle, (cellNFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accN (Memref.isWhole_whole _) accD (Memref.isWhole_whole _) ((condFirst_iff ⟨0, hn⟩).mpr rfl) (fun h => absurd ((condLast_iff ⟨0, hn⟩).mp h) (by show ¬ (0 : ℕ) = 63; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)), (cellDFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accN (Memref.isWhole_whole _) accD (Memref.isWhole_whole _) ((condFirst_iff ⟨0, hn⟩).mpr rfl) (fun h => absurd ((condLast_iff ⟨0, hn⟩).mp h) (by show ¬ (0 : ℕ) = 63; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)))
  | n + 1, hn =>
    if h1 : n + 1 = 63 then
      ((outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2), (cellNLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2), (cellDLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2))
    else
      (outIdle, (cellNMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2), (cellDMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2))

theorem outsAt_first (c : Dev nD) (t : Fin cfg0.N) (h0 : t.val = 0) (hc0 : condFirst (grid0.coords t)) (hc1 : ¬condLast (grid0.coords t)) :
    outsAt m c t.val t.isLt = (outIdle, (cellNFirst c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t)), (cellDFirst c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t))) := by
  obtain ⟨n, hn⟩ := t
  cases n with
  | zero => exact rfl
  | succ n => exact absurd h0 (Nat.succ_ne_zero n)

theorem outsAt_middle (c : Dev nD) (t : Fin cfg0.N) (h0 : t.val ≠ 0) (h1 : t.val ≠ 63) (hc0 : ¬condFirst (grid0.coords t)) (hc1 : ¬condLast (grid0.coords t)) :
    outsAt m c t.val t.isLt = (outIdle, (cellNMiddle c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2), (cellDMiddle c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2)) := by
  obtain ⟨n, hn⟩ := t
  cases n with
  | zero => exact absurd rfl h0
  | succ n => exact (dif_neg h1).trans rfl

theorem outsAt_last (c : Dev nD) (t : Fin cfg0.N) (h1 : t.val = 63) (hc0 : ¬condFirst (grid0.coords t)) (hc1 : condLast (grid0.coords t)) :
    outsAt m c t.val t.isLt = ((outLast c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2), (cellNLast c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2), (cellDLast c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2)) := by
  obtain ⟨n, hn⟩ := t
  cases n with
  | zero => exact absurd h1 (by show ¬ (0 : ℕ) = 63; omega)
  | succ n => exact (dif_pos h1).trans rfl

/-- The invariant before position `n`: at first the two cells at anything, afterwards at what point `n - 1` left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accN fullShare ((outsAt m c n hn).2.1) ∗ owns (c : Thread nD τ) accD fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) accN fullShare ((outsAt m c n hn).2.1) ∗ owns (c : Thread nD τ) accD fullShare ((outsAt m c n hn).2.2)) := rfl
theorem PhiS_pos (c : Dev nD) (n : ℕ) (h : n ≤ cfg0.N) (hz : n ≠ 0) :
    PhiS m c n h = iprop(owns (c : Thread nD τ) accN fullShare ((outsAt m c (n - 1) (by omega)).2.1) ∗ owns (c : Thread nD τ) accD fullShare ((outsAt m c (n - 1) (by omega)).2.2)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; which of the three cases the point is in is read off
    its position; the invariant hands the body the two cells at what the point before left (at anything at the first
    point) and takes them back at this point's contents; the result cell is handed back untouched except at the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  have hN : t.val < 64 := lt_of_lt_of_eq t.isLt (show cfg0.N = 64 from N_0)
  by_cases h0 : t.val = 0
  · have hc0 : condFirst (grid0.coords t) := (condFirst_iff t).mpr h0
    have hc1 : ¬condLast (grid0.coords t) := fun h => by have := (condLast_iff t).mp h; omega
    rw [Dat.leavesExact_idle (dats m 0 c) 6 t (idle6 t hc1) (noFlush6 t hc1)]
    rw [outsAt_first m c t h0 hc0 hc1]
    unfold cellNFirst cellDFirst; (try dsimp only)
    rw [PhiS_castSucc m c t, PhiS_zero m c _ _ h0, scopedRest_cells]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ _ _ _ _ hc0 hc1 (iblk m c 0 t) (iblk m c 1 t) (iblk m c 2 t) (iblk m c 3 t) (iblk m c 4 t) (iblk m c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1]
    · isplitl [HS0]
      · unfold owns; iexists _; isplitr
        swap; · iexact HS0
        ipureintro; exact View.read_writes_of_cover _ _ _ _ _ (coverNFirst c _ _ _ _ _ _ _ _ _ _ _ _ _ _ _ _ _ _ _ _ _ _ _ _ _ _ _)
      · unfold owns; iexists _; isplitr
        swap; · iexact HS1
        ipureintro; exact View.read_writes_of_cover _ _ _ _ _ (coverDFirst c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬condFirst (grid0.coords t) := fun h => h0 ((condFirst_iff t).mp h)
    by_cases h1 : t.val = 63
    · have hc1 : condLast (grid0.coords t) := (condLast_iff t).mpr h1
      rw [show (dats m 0 c).leavesExact 6 t = owns (c : Thread nD τ) (ms6 t) fullShare ((dats m 0 c).after 6 t) from by
        unfold Dat.leavesExact; rw [live6 t hc1], after6]
      rw [outsAt_last m c t h1 hc0 hc1]
      unfold outLast cellNLast cellDLast; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ _ _ hc0 hc1 (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (coverNLast c _ _ _ _ _ _ _ _ _ _ _ _ _ _ _ _ _ _ _ _ _ _ _ _ _ _ _ _ _)
        · unfold owns; iexists _; isplitr
          swap; · iexact HS1
          ipureintro; exact View.read_writes_of_cover _ _ _ _ _ (coverDLast c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverOLast c _ _ _ _ _ _ _ _ _ _ _ _ _ _ _ _ _ _ _ _ _ _ _ _ _ _ _ _ _)
    · have hc1 : ¬condLast (grid0.coords t) := fun h => h1 ((condLast_iff t).mp h)
      rw [Dat.leavesExact_idle (dats m 0 c) 6 t (idle6 t hc1) (noFlush6 t hc1)]
      rw [outsAt_middle m c t h0 h1 hc0 hc1]
      unfold cellNMiddle cellDMiddle; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ _ _ hc0 hc1 (iblk m c 0 t) (iblk m c 1 t) (iblk m c 2 t) (iblk m c 3 t) (iblk m c 4 t) (iblk m c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1]
      · isplitl [HS0]
        · unfold owns; iexists _; isplitr
          swap; · iexact HS0
          ipureintro; exact View.read_writes_of_cover _ _ _ _ _ (coverNMiddle c _ _ _ _ _ _ _ _ _ _ _ _ _ _ _ _ _ _ _ _ _ _ _ _ _ _ _ _ _)
        · unfold owns; iexists _; isplitr
          swap; · iexact HS1
          ipureintro; exact View.read_writes_of_cover _ _ _ _ _ (coverDMiddle c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

/-- Before the first point the invariant is what the launch hands over: the two cells at anything. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the named contents of the two cells are forgotten. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest_cells]
  iintro ⟨HS0, HS1⟩
  isplitl [HS0]; · iexists _; iexact HS0
  iexists _; iexact HS1

theorem hout (c : Dev nD) : (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 64 := N_0; omega)

end Cert.Kernel.Gen

end
-- ==== Proof.WordLaunch.lean ====
/-
  The launch side of the frame.  At the launch the one scaled-input array read by two windows is split into two
  halves, one per window; at the exit the halves rejoin nothing yet: the one line after the launch runs within the
  result array and its own result buffer only, everything else waits beside it and is handed back unchanged.
-/
import proofs.«130531_j39487929319478_1_alg».proof.Proof.WordCarried

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the seven windows, one by one. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v4) ↦{fullShare} X main_v4) ∗ (((c : Thread nD τ).loc main_v7) ↦{fullShare} X main_v7) ∗ (((c : Thread nD τ).loc main_v8) ↦{fullShare} X main_v8) ∗ (((c : Thread nD τ).loc main_v9) ↦{fullShare} X main_v9) ∗ (((c : Thread nD τ).loc main_v10) ↦{fullShare} X main_v10) ∗ (((c : Thread nD τ).loc main_v11) ↦{fullShare} X main_v11)) := by
  unfold Pipeline.arrBufs
  exact bigSep_eq_bigSepL_of_eq [main_v4, main_v7, main_v8, main_v9, main_v10, main_v11] (by decide) (by decide) _

/-- The share each window's array is held at: the two windows on the scaled-input array hold half each. -/
def shareOf : Fin cfg0.W → PosShare TreeShare
  | ⟨0, _⟩ => (fullShare : PosShare TreeShare).left
  | ⟨1, _⟩ => (fullShare : PosShare TreeShare).right
  | ⟨2, _⟩ => fullShare
  | ⟨3, _⟩ => fullShare
  | ⟨4, _⟩ => fullShare
  | ⟨5, _⟩ => fullShare
  | ⟨6, _⟩ => fullShare

/-- The windows' arrays at the shares the proof data hold them at, one by one. -/
theorem arrays_chain (c : Dev nD) (X : (w : Fin cfg0.W) → Buf (Elt F) ((cfg0.win w).arr.view.loc (c : Thread nD τ))) :
    ((dats m 0 c).arrays X : sProp 𝕄)
      = iprop((((c : Thread nD τ).loc main_v4) ↦{(fullShare : PosShare TreeShare).left} X 0) ∗ (((c : Thread nD τ).loc main_v4) ↦{(fullShare : PosShare TreeShare).right} X 1) ∗ (((c : Thread nD τ).loc main_v7) ↦{fullShare} X 2) ∗ (((c : Thread nD τ).loc main_v8) ↦{fullShare} X 3) ∗ (((c : Thread nD τ).loc main_v9) ↦{fullShare} X 4) ∗ (((c : Thread nD τ).loc main_v10) ↦{fullShare} X 5) ∗ (((c : Thread nD τ).loc main_v11) ↦{fullShare} X 6)) := by
  have hs : ∀ w : Fin cfg0.W, (dats m 0 c).share w = shareOf w := fun w => by
    fin_cases w <;> rfl
  unfold Dat.arrays
  rw [show (bigSep Finset.univ fun w : Fin cfg0.W => (cfg0.win w).arr.view.loc (c : Thread nD τ) ↦[(cfg0.win w).arr.view.set]{(dats m 0 c).share w} X w)
      = (bigSep Finset.univ fun w : Fin cfg0.W => (((c : Thread nD τ).loc (Pipeline.arrRef spec0 w)) ↦{shareOf w} X w : sProp 𝕄)) from
    bigSep_congr fun w _ => by rw [(arr_whole0 w).set_eq_univ, hs w]]
  rw [bigSep_W0]
  rfl

/-- At the launch: the scaled-input array is split in two halves, one per window that reads it. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_chain, arrays_chain]
  iintro ⟨H4, H7, H8, H9, H10, H11⟩
  ihave H4' := (pointsTo_share (PosShare.mem_left_op_right fullShare)).1 $$ H4
  icases H4' with ⟨Hl, Hr⟩
  isplitl [Hl]; · iexact Hl
  isplitl [Hr]; · iexact Hr
  isplitl [H7]; · iexact H7
  isplitl [H8]; · iexact H8
  isplitl [H9]; · iexact H9
  isplitl [H10]; · iexact H10
  iexact H11

/-! ## The line after the launch -/

/-- The two buffers the line after the launch touches: the result array and the line's own result. -/
def Stail : Finset (DevRef τ sig) := {Proc.devRef .tc main_v11, Proc.devRef .tc main_v12}

/-- The buffers at the exit: as at the launch, the result array at what the last point wrote back. -/
def Wexit (c : Dev nD) : Valuation τ sig (Elt F) :=
  Function.update (V0 m c) (Proc.devRef .tc main_v11) ((dats m 0 c).arrAt 6 cfg0.N)

/-- The buffers after the line that follows the launch. -/
def V' (c : Dev nD) (b : Ref sig .tc) : Buf (Elt F) ((c : Thread nD τ).loc b) :=
  StableHlo.after (List.flatten [hostOps1]) (Wexit m c) (Proc.devRef .tc b)

theorem Wexit_res (c : Dev nD) : Wexit m c (Proc.devRef .tc main_v11) = (dats m 0 c).arrAt 6 cfg0.N := by
  unfold Wexit; exact Function.update_self _ _ _

theorem Wexit_of_ne (c : Dev nD) (b : Ref sig .tc) (h : b ≠ main_v11) : Wexit m c (Proc.devRef .tc b) = V m c b := by
  unfold Wexit; exact Function.update_of_ne (StableHlo.devRef_ne_of_ne h) _ _

/-- The line writes its own result only. -/
theorem V'_of_ne (c : Dev nD) (b : Ref sig .tc) (h12 : b ≠ main_v12) : V' m c b = Wexit m c (Proc.devRef .tc b) := by
  unfold V'
  exact StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne h12))

theorem held_tail (c : Dev nD) (X : Valuation τ sig (Elt F)) :
    (StableHlo.held (Ix := Unit) (Name := ℕ) (U := UR sig nD τ) (Lvl := ℕ) (c : Thread nD τ) Stail X : sProp 𝕄)
      = iprop((((c : Thread nD τ).loc main_v11) ↦{fullShare} X (Proc.devRef .tc main_v11)) ∗ (((c : Thread nD τ).loc main_v12) ↦{fullShare} X (Proc.devRef .tc main_v12))) := by
  unfold StableHlo.held Stail
  rw [bigSep_insert (by
    rw [Finset.mem_singleton]; exact StableHlo.devRef_ne_of_ne (by decide)), bigSep_singleton]
  rfl

/-- What waits beside the line: the six input windows' arrays at their shares, and the ten other buffers. -/
def Rexit (c : Dev nD) : sProp 𝕄 :=
  iprop((((c : Thread nD τ).loc main_v4) ↦{(fullShare : PosShare TreeShare).left} (dats m 0 c).arrAt 0 cfg0.N) ∗ (((c : Thread nD τ).loc main_v4) ↦{(fullShare : PosShare TreeShare).right} (dats m 0 c).arrAt 1 cfg0.N) ∗ (((c : Thread nD τ).loc main_v7) ↦{fullShare} (dats m 0 c).arrAt 2 cfg0.N) ∗ (((c : Thread nD τ).loc main_v8) ↦{fullShare} (dats m 0 c).arrAt 3 cfg0.N) ∗ (((c : Thread nD τ).loc main_v9) ↦{fullShare} (dats m 0 c).arrAt 4 cfg0.N) ∗ (((c : Thread nD τ).loc main_v10) ↦{fullShare} (dats m 0 c).arrAt 5 cfg0.N)
    ∗ (((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_v0) ↦{fullShare} V m c main_v0) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_v5) ↦{fullShare} V m c main_v5) ∗ (((c : Thread nD τ).loc main_cst) ↦{fullShare} V m c main_cst) ∗ (((c : Thread nD τ).loc main_v6) ↦{fullShare} V m c main_v6))

theorem tail_sub : ∀ ops ∈ ([hostOps1] : List (List (HloOp τ sig (Elt F)))), ∀ op ∈ ops, op.bufs ⊆ Stail := by
  intro ops hops op hop
  simp only [List.mem_cons, List.mem_nil_iff, or_false] at hops
  rcases hops with rfl
  simp only [hostOps1, List.mem_cons, List.mem_nil_iff, or_false] at hop
  rcases hop with rfl
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem hexit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ iprop((StableHlo.held (c : Thread nD τ) Stail (Wexit m c) : sProp 𝕄) ∗ Rexit m c) := by
  rw [arrays_chain, unscopedRest0_eq, held_tail, Wexit_res, Wexit_of_ne m c main_v12 (by decide)]
  unfold Rexit
  iintro ⟨⟨A0, A1, A2, A3, A4, A5, A6⟩, U0, U1, U2, U3, U4, U5, U6, U7, U8, U9, U10⟩
  isplitl [A6 U10]
  · isplitl [A6]; · iexact A6
    iexact U10
  isplitl [A0]; · iexact A0
  isplitl [A1]; · iexact A1
  isplitl [A2]; · iexact A2
  isplitl [A3]; · iexact A3
  isplitl [A4]; · iexact A4
  isplitl [A5]; · iexact A5
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [U7]; · iexact U7
  isplitl [U8]; · iexact U8
  iexact U9

theorem hback (c : Dev nD) :
    iprop((StableHlo.held (c : Thread nD τ) Stail (StableHlo.after (List.flatten [hostOps1]) (Wexit m c)) : sProp 𝕄) ∗ Rexit m c)
      ⊢ iprop((dats m 0 c).arrays ((dats m 0 c).arrAt · cfg0.N)
        ∗ Pipeline.unscopedRest (Ix := Unit) (Name := ℕ) (U := UR sig nD τ) (Lvl := ℕ) spec0 c (V' m c)) := by
  rw [arrays_chain, unscopedRest0_eq, held_tail]
  rw [show V' m c main_arg0 = V m c main_arg0 from (V'_of_ne m c main_arg0 (by decide)).trans (Wexit_of_ne m c main_arg0 (by decide)),
    show V' m c main_arg1 = V m c main_arg1 from (V'_of_ne m c main_arg1 (by decide)).trans (Wexit_of_ne m c main_arg1 (by decide)),
    show V' m c main_arg2 = V m c main_arg2 from (V'_of_ne m c main_arg2 (by decide)).trans (Wexit_of_ne m c main_arg2 (by decide)),
    show V' m c main_v0 = V m c main_v0 from (V'_of_ne m c main_v0 (by decide)).trans (Wexit_of_ne m c main_v0 (by decide)),
    show V' m c main_v1 = V m c main_v1 from (V'_of_ne m c main_v1 (by decide)).trans (Wexit_of_ne m c main_v1 (by decide)),
    show V' m c main_v2 = V m c main_v2 from (V'_of_ne m c main_v2 (by decide)).trans (Wexit_of_ne m c main_v2 (by decide)),
    show V' m c main_v3 = V m c main_v3 from (V'_of_ne m c main_v3 (by decide)).trans (Wexit_of_ne m c main_v3 (by decide)),
    show V' m c main_v5 = V m c main_v5 from (V'_of_ne m c main_v5 (by decide)).trans (Wexit_of_ne m c main_v5 (by decide)),
    show V' m c main_cst = V m c main_cst from (V'_of_ne m c main_cst (by decide)).trans (Wexit_of_ne m c main_cst (by decide)),
    show V' m c main_v6 = V m c main_v6 from (V'_of_ne m c main_v6 (by decide)).trans (Wexit_of_ne m c main_v6 (by decide))]
  rw [show StableHlo.after (List.flatten [hostOps1]) (Wexit m c) (Proc.devRef .tc main_v11) = (dats m 0 c).arrAt 6 cfg0.N from
    (V'_of_ne m c main_v11 (by decide)).trans (Wexit_res m c)]
  unfold Rexit
  iintro ⟨⟨P11, P12⟩, A0, A1, A2, A3, A4, A5, U0, U1, U2, U3, U4, U5, U6, U7, U8, U9⟩
  isplitl [A0 A1 A2 A3 A4 A5 P11]
  · isplitl [A0]; · iexact A0
    isplitl [A1]; · iexact A1
    isplitl [A2]; · iexact A2
    isplitl [A3]; · iexact A3
    isplitl [A4]; · iexact A4
    isplitl [A5]; · iexact A5
    iexact P11
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [U7]; · iexact U7
  isplitl [U8]; · iexact U8
  isplitl [U9]; · iexact U9
  iexact P12

/-! ## The run and the frame -/

set_option backward.isDefEq.respectTransparency.types false in
/-- Every weakly fair execution ends without fault, each window's array at what the proof data compute and every
    other unscoped buffer at what the line after the launch leaves. -/
theorem run_main : θ_run defs (onTc (τ := τ) (main (F := F))) (s₀ m ρ) (Pipeline.FramePost cfgs (dats m) 0 (V' m)) :=
  Pipeline.θ_run_frame_shared_carried_around cfgs (dats m) (0 : Fin 1) cellOf_inj winFacts₀0 block_pos0 arr_whole0 stage_whole0
    defs₀ Variants.none m ρ main (fun c => (body_obligation m c).loose) (fun _ _ => rfl) (V m) (V' m) [hostOps1]
    (hmain m Variants.none) (hsplit m) (hin m) (hout m) Stail (Wexit m) (Rexit m) tail_sub tail_fresh (hexit m) (hback m)

/-- No host operation before the launch writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- An argument is no window's array and the line after the launch does not write it: it ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 rfl (by decide))).trans (((V'_of_ne m c main_arg0 (by decide)).trans (Wexit_of_ne m c main_arg0 (by decide))).trans (V_main_arg0 m c)),
    ((h c).2 main_arg1 (Pipeline.mem_restRefs_of main_arg1 rfl (by decide))).trans (((V'_of_ne m c main_arg1 (by decide)).trans (Wexit_of_ne m c main_arg1 (by decide))).trans (V_main_arg1 m c)),
    ((h c).2 main_arg2 (Pipeline.mem_restRefs_of main_arg2 rfl (by decide))).trans (((V'_of_ne m c main_arg2 (by decide)).trans (Wexit_of_ne m c main_arg2 (by decide))).trans (V_main_arg2 m c))⟩) (run_main m ρ)

end Cert.Kernel.Gen

end
-- ==== Proof.IdealPoints.lean ====
/-
  The grid of the pairwise-kernel reduction has 64 points, visited in row-major order of the 8 × 8 tiles.  Two
  accumulator cells are cleared at the first point, added to at every point, and read out into the result cell at
  the last point only.  This file fixes, over the grid, when each of the two conditionals of the body is taken
  (the first point; the last point), where the result window is idle, and the entry valuation of the buffers
  after the host operations that precede the launch.
-/
import proofs.«130531_j39487929319478_1_alg».proof.Proof.Gen.KernelIdeal.Launch
import proofs.«130531_j39487929319478_1_alg».proof.Proof.Gen.KernelIdeal.Skeleton
import proofs.«130531_j39487929319478_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The buffers of core `c` when the launch is reached: after the twelve host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the launch, the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The two conditionals of the body, over the grid -/

/-- The accumulators are cleared exactly when both tile coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg0.N, condFirst (grid0.coords t) ↔ t.val = 0 :=
  (by decide +kernel : ∀ t : Fin grid0.N, condFirst (grid0.coords t) ↔ t.val = 0)

/-- The result is written exactly when both tile coordinates are seven. -/
abbrev condLast (i : grid0.Coords) : Prop := k0_cond2 i = 1#1
theorem condLast_iff : ∀ t : Fin cfg0.N, condLast (grid0.coords t) ↔ t.val = 63 :=
  (by decide +kernel : ∀ t : Fin grid0.N, condLast (grid0.coords t) ↔ t.val = 63)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last point the result window is idle and is not written back. -/
theorem idle6 : ∀ t : Fin cfg0.N, ¬condLast (grid0.coords t) → cfg0.idle 6 (grid0.coords t) = true := by decide +kernel
theorem noFlush6 : ∀ t : Fin cfg0.N, ¬condLast (grid0.coords t) → (cfg0.win 6).flush t = false := by decide +kernel
/-- At the last point it is live. -/
theorem live6 : ∀ t : Fin cfg0.N, condLast (grid0.coords t) → cfg0.idle 6 (grid0.coords t) = false := by decide +kernel

/-! ## The memrefs the body is called with -/

abbrev ms0 (t : Fin cfg0.N) : Memref sig .tc .vmem S1024x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
/-- The two accumulator cells. -/
abbrev accN : Memref sig .tc .vmem S1x1 .f32 := Memref.whole cc0_scratch0
abbrev accD : Memref sig .tc .vmem S1x1 .f32 := Memref.whole cc0_scratch1

/-- The core's scoped buffers outside the staging buffers are the two accumulator cells, each at some contents. -/
theorem scopedRest_cells (c : Dev nD) :
    (Pipeline.scopedRest (Ix := Unit) (Name := ℕ) (U := UR sig nD τ) (Lvl := ℕ) (Val := Elt F) spec0 c : sProp 𝕄)
      = iprop((∃ d, owns (c : Thread nD τ) accN fullShare d) ∗ (∃ d, owns (c : Thread nD τ) accD fullShare d)) := by
  rw [scopedRest0_eq]; simp only [accN, accD, owns_whole]; try rfl

end Cert.KernelIdeal.Gen

end
-- ==== Proof.IdealRunFirst.lean ====
/-
  The body of the pairwise-kernel reduction run at the first point: the two cells are cleared, then this tile's two sums are added.
  On whole memrefs holding the six input blocks, the result cell and the two accumulator cells, the body runs to the end,
  hands the inputs back as they were, and leaves in each cell it stored into the list of pieces stored (last first).
-/
import proofs.«130531_j39487929319478_1_alg».proof.Proof.IdealPoints

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i)
    (x0 : Vec F S1024x64 .bf16) (x1 : Vec F S1024x64 .bf16) (x2 : Vec F S1024x1 .f32) (x3 : Vec F S1x1024 .f32) (x4 : Vec F S1024x1 .f32) (x5 : Vec F S1x1024 .f32) :
    Σ' (LS0 : List (View.Piece (Elt F) S1x1 .f32)), { LS1 : List (View.Piece (Elt F) S1x1 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kta_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__kta_kernel_eq_skeleton]; unfold cc0__kta_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Gen

end
-- ==== Proof.IdealRunMiddle.lean ====
/-
  The body of the pairwise-kernel reduction run at a point that is neither first nor last: this tile's two sums are added to the two cells.
  On whole memrefs holding the six input blocks, the result cell and the two accumulator cells, the body runs to the end,
  hands the inputs back as they were, and leaves in each cell it stored into the list of pieces stored (last first).
-/
import proofs.«130531_j39487929319478_1_alg».proof.Proof.IdealRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i)
    (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    Σ' (LS0 : List (View.Piece (Elt F) S1x1 .f32)), { LS1 : List (View.Piece (Elt F) S1x1 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kta_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__kta_kernel_eq_skeleton]; unfold cc0__kta_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Gen

end
-- ==== Proof.IdealRunLast.lean ====
/-
  The body of the pairwise-kernel reduction run at the last point: this tile's two sums are added, then the result cell is written from the two totals.
  On whole memrefs holding the six input blocks, the result cell and the two accumulator cells, the body runs to the end,
  hands the inputs back as they were, and leaves in each cell it stored into the list of pieces stored (last first).
-/
import proofs.«130531_j39487929319478_1_alg».proof.Proof.IdealRunMiddle

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i)
    (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    Σ' (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kta_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__kta_kernel_eq_skeleton]; unfold cc0__kta_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Gen

end
-- ==== Proof.IdealCarried.lean ====
/-
  The frame of the pairwise-kernel reduction: every weakly fair execution ends, nothing faults, and the arrays end
  where the proof data say.  The two accumulator cells are carried from point to point: before the first point they
  hold anything, after point n they hold what the case of point n left in them, computed from what point n - 1 left.
  The result cell is idle until the last point, which stores into it.  The two windows that read the one scaled-input
  array each hold half of it.
-/
import proofs.«130531_j39487929319478_1_alg».proof.Proof.IdealRunLast
import proofs.«130531_j39487929319478_1_alg».proof.Proof.LibSharedCarriedTail

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two accumulator cells and one staging buffer of the result cell, as views through which contents are stated. -/
abbrev VN : View sig .tc .vmem S1x1 .f32 := accN.view
abbrev VD : View sig .tc .vmem S1x1 .f32 := accD.view
abbrev VO : View sig .tc .vmem S1x1 .f32 := (Memref.whole cc0_stg6_0 : Memref sig .tc .vmem S1x1 .f32).view

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pieces stored into the first accumulator cell cover it. -/
theorem coverNFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (y : S1x1.Idx) : ∃ pc ∈ (runFirst c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).1 S1x1.size (by sl_kernel_rfl) y
/-- The pieces stored into the second accumulator cell cover it. -/
theorem coverDFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (y : S1x1.Idx) : ∃ pc ∈ (runFirst c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).2.1 S1x1.size (by sl_kernel_rfl) y
/-- What the two cells hold afterwards. -/
def cellNFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) : Vec F S1x1 .f32 := VN.read (Elt F) (VN.writes (Elt F) VN.junk (runFirst c i arg2 harg2 arg3 harg3 arg4 harg4 arg5 harg5 arg6 harg6 arg7 harg7 arg8 harg8 arg9 harg9 arg10 harg10 hc0 hc1 x0 x1 x2 x3 x4 x5).1)
def cellDFirst (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) : Vec F S1x1 .f32 := VD.read (Elt F) (VD.writes (Elt F) VD.junk (runFirst c i arg2 harg2 arg3 harg3 arg4 harg4 arg5 harg5 arg6 harg6 arg7 harg7 arg8 harg8 arg9 harg9 arg10 harg10 hc0 hc1 x0 x1 x2 x3 x4 x5).2.1)

/-- The pieces stored into the first accumulator cell cover it. -/
theorem coverNMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runMiddle c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 x5 xs0 xs1).1 S1x1.size (by sl_kernel_rfl) y
/-- The pieces stored into the second accumulator cell cover it. -/
theorem coverDMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runMiddle c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runMiddle c i arg2 harg2 arg3 harg3 arg4 harg4 arg5 harg5 arg6 harg6 arg7 harg7 arg8 harg8 arg9 harg9 arg10 harg10 hc0 hc1 x0 x1 x2 x3 x4 x5 xs0 xs1).2.1 S1x1.size (by sl_kernel_rfl) y
/-- What the two cells hold afterwards. -/
def cellNMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VN.read (Elt F) (VN.writes (Elt F) VN.junk (runMiddle c i arg2 harg2 arg3 harg3 arg4 harg4 arg5 harg5 arg6 harg6 arg7 harg7 arg8 harg8 arg9 harg9 arg10 harg10 hc0 hc1 x0 x1 x2 x3 x4 x5 xs0 xs1).1)
def cellDMiddle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VD.read (Elt F) (VD.writes (Elt F) VD.junk (runMiddle c i arg2 harg2 arg3 harg3 arg4 harg4 arg5 harg5 arg6 harg6 arg7 harg7 arg8 harg8 arg9 harg9 arg10 harg10 hc0 hc1 x0 x1 x2 x3 x4 x5 xs0 xs1).2.1)

/-- The pieces stored into the first accumulator cell cover it. -/
theorem coverNLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runLast c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.1 S1x1.size (by sl_kernel_rfl) y
/-- The pieces stored into the second accumulator cell cover it. -/
theorem coverDLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runLast c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.2.1 S1x1.size (by sl_kernel_rfl) y
/-- What the two cells hold afterwards. -/
def cellNLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VN.read (Elt F) (VN.writes (Elt F) VN.junk (runLast c i arg2 harg2 arg3 harg3 arg4 harg4 arg5 harg5 arg6 harg6 arg7 harg7 arg8 harg8 arg9 harg9 arg10 harg10 hc0 hc1 x0 x1 x2 x3 x4 x5 xs0 xs1).2.1)
def cellDLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VD.read (Elt F) (VD.writes (Elt F) VD.junk (runLast c i arg2 harg2 arg3 harg3 arg4 harg4 arg5 harg5 arg6 harg6 arg7 harg7 arg8 harg8 arg9 harg9 arg10 harg10 hc0 hc1 x0 x1 x2 x3 x4 x5 xs0 xs1).2.2.1)

/-- The pieces the last point stores into the result cell cover it. -/
theorem coverOLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) (y : S1x1.Idx) : ∃ pc ∈ (runLast c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).1 S1x1.size (by sl_kernel_rfl) y
/-- What the last point leaves in the result cell. -/
def outLast (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) : Vec F S1x1 .f32 := VO.read (Elt F) (VO.writes (Elt F) VO.junk (runLast c i arg2 harg2 arg3 harg3 arg4 harg4 arg5 harg5 arg6 harg6 arg7 harg7 arg8 harg8 arg9 harg9 arg10 harg10 hc0 hc1 x0 x1 x2 x3 x4 x5 xs0 xs1).1)
/-- A placeholder for the result cell's staging buffer at the points that leave it idle: nothing consults it. -/
def outIdle : Vec F S1x1 .f32 := VO.read (Elt F) VO.junk

/-! ## What the result cell and the two accumulator cells hold after each point -/

def outsAt (c : Dev nD) : (n : ℕ) → n < cfg0.N → Vec F S1x1 .f32 × Vec F S1x1 .f32 × Vec F S1x1 .f32
  | 0, hn => (outIdle, (cellNFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accN (Memref.isWhole_whole _) accD (Memref.isWhole_whole _) ((condFirst_iff ⟨0, hn⟩).mpr rfl) (fun h => absurd ((condLast_iff ⟨0, hn⟩).mp h) (by show ¬ (0 : ℕ) = 63; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)), (cellDFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accN (Memref.isWhole_whole _) accD (Memref.isWhole_whole _) ((condFirst_iff ⟨0, hn⟩).mpr rfl) (fun h => absurd ((condLast_iff ⟨0, hn⟩).mp h) (by show ¬ (0 : ℕ) = 63; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)))
  | n + 1, hn =>
    if h1 : n + 1 = 63 then
      ((outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2), (cellNLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2), (cellDLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2))
    else
      (outIdle, (cellNMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2), (cellDMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accN (Memref.isWhole_whole _) accD (Memref.isWhole_whole _) (fun h => absurd ((condFirst_iff ⟨n + 1, hn⟩).mp h) (Nat.succ_ne_zero n)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2))

theorem outsAt_first (c : Dev nD) (t : Fin cfg0.N) (h0 : t.val = 0) (hc0 : condFirst (grid0.coords t)) (hc1 : ¬condLast (grid0.coords t)) :
    outsAt m c t.val t.isLt = (outIdle, (cellNFirst c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t)), (cellDFirst c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t))) := by
  obtain ⟨n, hn⟩ := t
  cases n with
  | zero => exact rfl
  | succ n => exact absurd h0 (Nat.succ_ne_zero n)

theorem outsAt_middle (c : Dev nD) (t : Fin cfg0.N) (h0 : t.val ≠ 0) (h1 : t.val ≠ 63) (hc0 : ¬condFirst (grid0.coords t)) (hc1 : ¬condLast (grid0.coords t)) :
    outsAt m c t.val t.isLt = (outIdle, (cellNMiddle c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2), (cellDMiddle c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2)) := by
  obtain ⟨n, hn⟩ := t
  cases n with
  | zero => exact absurd rfl h0
  | succ n => exact (dif_neg h1).trans rfl

theorem outsAt_last (c : Dev nD) (t : Fin cfg0.N) (h1 : t.val = 63) (hc0 : ¬condFirst (grid0.coords t)) (hc1 : condLast (grid0.coords t)) :
    outsAt m c t.val t.isLt = ((outLast c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2), (cellNLast c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2), (cellDLast c (grid0.coords t) (ms0 t) (hs0 t) (ms1 t) (hs1 t) (ms2 t) (hs2 t) (ms3 t) (hs3 t) (ms4 t) (hs4 t) (ms5 t) (hs5 t) (ms6 t) (hs6 t) accN (Memref.isWhole_whole _) accD (Memref.isWhole_whole _) hc0 hc1 (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2)) := by
  obtain ⟨n, hn⟩ := t
  cases n with
  | zero => exact absurd h1 (by show ¬ (0 : ℕ) = 63; omega)
  | succ n => exact (dif_pos h1).trans rfl

/-- The invariant before position `n`: at first the two cells at anything, afterwards at what point `n - 1` left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accN fullShare ((outsAt m c n hn).2.1) ∗ owns (c : Thread nD τ) accD fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) accN fullShare ((outsAt m c n hn).2.1) ∗ owns (c : Thread nD τ) accD fullShare ((outsAt m c n hn).2.2)) := rfl
theorem PhiS_pos (c : Dev nD) (n : ℕ) (h : n ≤ cfg0.N) (hz : n ≠ 0) :
    PhiS m c n h = iprop(owns (c : Thread nD τ) accN fullShare ((outsAt m c (n - 1) (by omega)).2.1) ∗ owns (c : Thread nD τ) accD fullShare ((outsAt m c (n - 1) (by omega)).2.2)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; which of the three cases the point is in is read off
    its position; the invariant hands the body the two cells at what the point before left (at anything at the first
    point) and takes them back at this point's contents; the result cell is handed back untouched except at the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  have hN : t.val < 64 := lt_of_lt_of_eq t.isLt (show cfg0.N = 64 from N_0)
  by_cases h0 : t.val = 0
  · have hc0 : condFirst (grid0.coords t) := (condFirst_iff t).mpr h0
    have hc1 : ¬condLast (grid0.coords t) := fun h => by have := (condLast_iff t).mp h; omega
    rw [Dat.leavesExact_idle (dats m 0 c) 6 t (idle6 t hc1) (noFlush6 t hc1)]
    rw [outsAt_first m c t h0 hc0 hc1]
    unfold cellNFirst cellDFirst; (try dsimp only)
    rw [PhiS_castSucc m c t, PhiS_zero m c _ _ h0, scopedRest_cells]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ _ _ _ _ hc0 hc1 (iblk m c 0 t) (iblk m c 1 t) (iblk m c 2 t) (iblk m c 3 t) (iblk m c 4 t) (iblk m c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1]
    · isplitl [HS0]
      · unfold owns; iexists _; isplitr
        swap; · iexact HS0
        ipureintro; exact View.read_writes_of_cover _ _ _ _ _ (coverNFirst c _ _ _ _ _ _ _ _ _ _ _ _ _ _ _ _ _ _ _ _ _ _ _ _ _ _ _)
      · unfold owns; iexists _; isplitr
        swap; · iexact HS1
        ipureintro; exact View.read_writes_of_cover _ _ _ _ _ (coverDFirst c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬condFirst (grid0.coords t) := fun h => h0 ((condFirst_iff t).mp h)
    by_cases h1 : t.val = 63
    · have hc1 : condLast (grid0.coords t) := (condLast_iff t).mpr h1
      rw [show (dats m 0 c).leavesExact 6 t = owns (c : Thread nD τ) (ms6 t) fullShare ((dats m 0 c).after 6 t) from by
        unfold Dat.leavesExact; rw [live6 t hc1], after6]
      rw [outsAt_last m c t h1 hc0 hc1]
      unfold outLast cellNLast cellDLast; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ _ _ hc0 hc1 (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (coverNLast c _ _ _ _ _ _ _ _ _ _ _ _ _ _ _ _ _ _ _ _ _ _ _ _ _ _ _ _ _)
        · unfold owns; iexists _; isplitr
          swap; · iexact HS1
          ipureintro; exact View.read_writes_of_cover _ _ _ _ _ (coverDLast c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverOLast c _ _ _ _ _ _ _ _ _ _ _ _ _ _ _ _ _ _ _ _ _ _ _ _ _ _ _ _ _)
    · have hc1 : ¬condLast (grid0.coords t) := fun h => h1 ((condLast_iff t).mp h)
      rw [Dat.leavesExact_idle (dats m 0 c) 6 t (idle6 t hc1) (noFlush6 t hc1)]
      rw [outsAt_middle m c t h0 h1 hc0 hc1]
      unfold cellNMiddle cellDMiddle; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ _ _ hc0 hc1 (iblk m c 0 t) (iblk m c 1 t) (iblk m c 2 t) (iblk m c 3 t) (iblk m c 4 t) (iblk m c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1]
      · isplitl [HS0]
        · unfold owns; iexists _; isplitr
          swap; · iexact HS0
          ipureintro; exact View.read_writes_of_cover _ _ _ _ _ (coverNMiddle c _ _ _ _ _ _ _ _ _ _ _ _ _ _ _ _ _ _ _ _ _ _ _ _ _ _ _ _ _)
        · unfold owns; iexists _; isplitr
          swap; · iexact HS1
          ipureintro; exact View.read_writes_of_cover _ _ _ _ _ (coverDMiddle c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

/-- Before the first point the invariant is what the launch hands over: the two cells at anything. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the named contents of the two cells are forgotten. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest_cells]
  iintro ⟨HS0, HS1⟩
  isplitl [HS0]; · iexists _; iexact HS0
  iexists _; iexact HS1

theorem hout (c : Dev nD) : (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 64 := N_0; omega)

end Cert.KernelIdeal.Gen

end
-- ==== Proof.IdealLaunch.lean ====
/-
  The launch side of the frame.  At the launch the one scaled-input array read by two windows is split into two
  halves, one per window; at the exit the halves rejoin nothing yet: the one line after the launch runs within the
  result array and its own result buffer only, everything else waits beside it and is handed back unchanged.
-/
import proofs.«130531_j39487929319478_1_alg».proof.Proof.IdealCarried

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the seven windows, one by one. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v4) ↦{fullShare} X main_v4) ∗ (((c : Thread nD τ).loc main_v7) ↦{fullShare} X main_v7) ∗ (((c : Thread nD τ).loc main_v8) ↦{fullShare} X main_v8) ∗ (((c : Thread nD τ).loc main_v9) ↦{fullShare} X main_v9) ∗ (((c : Thread nD τ).loc main_v10) ↦{fullShare} X main_v10) ∗ (((c : Thread nD τ).loc main_v11) ↦{fullShare} X main_v11)) := by
  unfold Pipeline.arrBufs
  exact bigSep_eq_bigSepL_of_eq [main_v4, main_v7, main_v8, main_v9, main_v10, main_v11] (by decide) (by decide) _

/-- The share each window's array is held at: the two windows on the scaled-input array hold half each. -/
def shareOf : Fin cfg0.W → PosShare TreeShare
  | ⟨0, _⟩ => (fullShare : PosShare TreeShare).left
  | ⟨1, _⟩ => (fullShare : PosShare TreeShare).right
  | ⟨2, _⟩ => fullShare
  | ⟨3, _⟩ => fullShare
  | ⟨4, _⟩ => fullShare
  | ⟨5, _⟩ => fullShare
  | ⟨6, _⟩ => fullShare

/-- The windows' arrays at the shares the proof data hold them at, one by one. -/
theorem arrays_chain (c : Dev nD) (X : (w : Fin cfg0.W) → Buf (Elt F) ((cfg0.win w).arr.view.loc (c : Thread nD τ))) :
    ((dats m 0 c).arrays X : sProp 𝕄)
      = iprop((((c : Thread nD τ).loc main_v4) ↦{(fullShare : PosShare TreeShare).left} X 0) ∗ (((c : Thread nD τ).loc main_v4) ↦{(fullShare : PosShare TreeShare).right} X 1) ∗ (((c : Thread nD τ).loc main_v7) ↦{fullShare} X 2) ∗ (((c : Thread nD τ).loc main_v8) ↦{fullShare} X 3) ∗ (((c : Thread nD τ).loc main_v9) ↦{fullShare} X 4) ∗ (((c : Thread nD τ).loc main_v10) ↦{fullShare} X 5) ∗ (((c : Thread nD τ).loc main_v11) ↦{fullShare} X 6)) := by
  have hs : ∀ w : Fin cfg0.W, (dats m 0 c).share w = shareOf w := fun w => by
    fin_cases w <;> rfl
  unfold Dat.arrays
  rw [show (bigSep Finset.univ fun w : Fin cfg0.W => (cfg0.win w).arr.view.loc (c : Thread nD τ) ↦[(cfg0.win w).arr.view.set]{(dats m 0 c).share w} X w)
      = (bigSep Finset.univ fun w : Fin cfg0.W => (((c : Thread nD τ).loc (Pipeline.arrRef spec0 w)) ↦{shareOf w} X w : sProp 𝕄)) from
    bigSep_congr fun w _ => by rw [(arr_whole0 w).set_eq_univ, hs w]]
  rw [bigSep_W0]
  rfl

/-- At the launch: the scaled-input array is split in two halves, one per window that reads it. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_chain, arrays_chain]
  iintro ⟨H4, H7, H8, H9, H10, H11⟩
  ihave H4' := (pointsTo_share (PosShare.mem_left_op_right fullShare)).1 $$ H4
  icases H4' with ⟨Hl, Hr⟩
  isplitl [Hl]; · iexact Hl
  isplitl [Hr]; · iexact Hr
  isplitl [H7]; · iexact H7
  isplitl [H8]; · iexact H8
  isplitl [H9]; · iexact H9
  isplitl [H10]; · iexact H10
  iexact H11

/-! ## The line after the launch -/

/-- The two buffers the line after the launch touches: the result array and the line's own result. -/
def Stail : Finset (DevRef τ sig) := {Proc.devRef .tc main_v11, Proc.devRef .tc main_v12}

/-- The buffers at the exit: as at the launch, the result array at what the last point wrote back. -/
def Wexit (c : Dev nD) : Valuation τ sig (Elt F) :=
  Function.update (V0 m c) (Proc.devRef .tc main_v11) ((dats m 0 c).arrAt 6 cfg0.N)

/-- The buffers after the line that follows the launch. -/
def V' (c : Dev nD) (b : Ref sig .tc) : Buf (Elt F) ((c : Thread nD τ).loc b) :=
  StableHlo.after (List.flatten [hostOps1]) (Wexit m c) (Proc.devRef .tc b)

theorem Wexit_res (c : Dev nD) : Wexit m c (Proc.devRef .tc main_v11) = (dats m 0 c).arrAt 6 cfg0.N := by
  unfold Wexit; exact Function.update_self _ _ _

theorem Wexit_of_ne (c : Dev nD) (b : Ref sig .tc) (h : b ≠ main_v11) : Wexit m c (Proc.devRef .tc b) = V m c b := by
  unfold Wexit; exact Function.update_of_ne (StableHlo.devRef_ne_of_ne h) _ _

/-- The line writes its own result only. -/
theorem V'_of_ne (c : Dev nD) (b : Ref sig .tc) (h12 : b ≠ main_v12) : V' m c b = Wexit m c (Proc.devRef .tc b) := by
  unfold V'
  exact StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne h12))

theorem held_tail (c : Dev nD) (X : Valuation τ sig (Elt F)) :
    (StableHlo.held (Ix := Unit) (Name := ℕ) (U := UR sig nD τ) (Lvl := ℕ) (c : Thread nD τ) Stail X : sProp 𝕄)
      = iprop((((c : Thread nD τ).loc main_v11) ↦{fullShare} X (Proc.devRef .tc main_v11)) ∗ (((c : Thread nD τ).loc main_v12) ↦{fullShare} X (Proc.devRef .tc main_v12))) := by
  unfold StableHlo.held Stail
  rw [bigSep_insert (by
    rw [Finset.mem_singleton]; exact StableHlo.devRef_ne_of_ne (by decide)), bigSep_singleton]
  rfl

/-- What waits beside the line: the six input windows' arrays at their shares, and the ten other buffers. -/
def Rexit (c : Dev nD) : sProp 𝕄 :=
  iprop((((c : Thread nD τ).loc main_v4) ↦{(fullShare : PosShare TreeShare).left} (dats m 0 c).arrAt 0 cfg0.N) ∗ (((c : Thread nD τ).loc main_v4) ↦{(fullShare : PosShare TreeShare).right} (dats m 0 c).arrAt 1 cfg0.N) ∗ (((c : Thread nD τ).loc main_v7) ↦{fullShare} (dats m 0 c).arrAt 2 cfg0.N) ∗ (((c : Thread nD τ).loc main_v8) ↦{fullShare} (dats m 0 c).arrAt 3 cfg0.N) ∗ (((c : Thread nD τ).loc main_v9) ↦{fullShare} (dats m 0 c).arrAt 4 cfg0.N) ∗ (((c : Thread nD τ).loc main_v10) ↦{fullShare} (dats m 0 c).arrAt 5 cfg0.N)
    ∗ (((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_v0) ↦{fullShare} V m c main_v0) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_v5) ↦{fullShare} V m c main_v5) ∗ (((c : Thread nD τ).loc main_cst) ↦{fullShare} V m c main_cst) ∗ (((c : Thread nD τ).loc main_v6) ↦{fullShare} V m c main_v6))

theorem tail_sub : ∀ ops ∈ ([hostOps1] : List (List (HloOp τ sig (Elt F)))), ∀ op ∈ ops, op.bufs ⊆ Stail := by
  intro ops hops op hop
  simp only [List.mem_cons, List.mem_nil_iff, or_false] at hops
  rcases hops with rfl
  simp only [hostOps1, List.mem_cons, List.mem_nil_iff, or_false] at hop
  rcases hop with rfl
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem hexit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ iprop((StableHlo.held (c : Thread nD τ) Stail (Wexit m c) : sProp 𝕄) ∗ Rexit m c) := by
  rw [arrays_chain, unscopedRest0_eq, held_tail, Wexit_res, Wexit_of_ne m c main_v12 (by decide)]
  unfold Rexit
  iintro ⟨⟨A0, A1, A2, A3, A4, A5, A6⟩, U0, U1, U2, U3, U4, U5, U6, U7, U8, U9, U10⟩
  isplitl [A6 U10]
  · isplitl [A6]; · iexact A6
    iexact U10
  isplitl [A0]; · iexact A0
  isplitl [A1]; · iexact A1
  isplitl [A2]; · iexact A2
  isplitl [A3]; · iexact A3
  isplitl [A4]; · iexact A4
  isplitl [A5]; · iexact A5
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [U7]; · iexact U7
  isplitl [U8]; · iexact U8
  iexact U9

theorem hback (c : Dev nD) :
    iprop((StableHlo.held (c : Thread nD τ) Stail (StableHlo.after (List.flatten [hostOps1]) (Wexit m c)) : sProp 𝕄) ∗ Rexit m c)
      ⊢ iprop((dats m 0 c).arrays ((dats m 0 c).arrAt · cfg0.N)
        ∗ Pipeline.unscopedRest (Ix := Unit) (Name := ℕ) (U := UR sig nD τ) (Lvl := ℕ) spec0 c (V' m c)) := by
  rw [arrays_chain, unscopedRest0_eq, held_tail]
  rw [show V' m c main_arg0 = V m c main_arg0 from (V'_of_ne m c main_arg0 (by decide)).trans (Wexit_of_ne m c main_arg0 (by decide)),
    show V' m c main_arg1 = V m c main_arg1 from (V'_of_ne m c main_arg1 (by decide)).trans (Wexit_of_ne m c main_arg1 (by decide)),
    show V' m c main_arg2 = V m c main_arg2 from (V'_of_ne m c main_arg2 (by decide)).trans (Wexit_of_ne m c main_arg2 (by decide)),
    show V' m c main_v0 = V m c main_v0 from (V'_of_ne m c main_v0 (by decide)).trans (Wexit_of_ne m c main_v0 (by decide)),
    show V' m c main_v1 = V m c main_v1 from (V'_of_ne m c main_v1 (by decide)).trans (Wexit_of_ne m c main_v1 (by decide)),
    show V' m c main_v2 = V m c main_v2 from (V'_of_ne m c main_v2 (by decide)).trans (Wexit_of_ne m c main_v2 (by decide)),
    show V' m c main_v3 = V m c main_v3 from (V'_of_ne m c main_v3 (by decide)).trans (Wexit_of_ne m c main_v3 (by decide)),
    show V' m c main_v5 = V m c main_v5 from (V'_of_ne m c main_v5 (by decide)).trans (Wexit_of_ne m c main_v5 (by decide)),
    show V' m c main_cst = V m c main_cst from (V'_of_ne m c main_cst (by decide)).trans (Wexit_of_ne m c main_cst (by decide)),
    show V' m c main_v6 = V m c main_v6 from (V'_of_ne m c main_v6 (by decide)).trans (Wexit_of_ne m c main_v6 (by decide))]
  rw [show StableHlo.after (List.flatten [hostOps1]) (Wexit m c) (Proc.devRef .tc main_v11) = (dats m 0 c).arrAt 6 cfg0.N from
    (V'_of_ne m c main_v11 (by decide)).trans (Wexit_res m c)]
  unfold Rexit
  iintro ⟨⟨P11, P12⟩, A0, A1, A2, A3, A4, A5, U0, U1, U2, U3, U4, U5, U6, U7, U8, U9⟩
  isplitl [A0 A1 A2 A3 A4 A5 P11]
  · isplitl [A0]; · iexact A0
    isplitl [A1]; · iexact A1
    isplitl [A2]; · iexact A2
    isplitl [A3]; · iexact A3
    isplitl [A4]; · iexact A4
    isplitl [A5]; · iexact A5
    iexact P11
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [U7]; · iexact U7
  isplitl [U8]; · iexact U8
  isplitl [U9]; · iexact U9
  iexact P12

/-! ## The run and the frame -/

set_option backward.isDefEq.respectTransparency.types false in
/-- Every weakly fair execution ends without fault, each window's array at what the proof data compute and every
    other unscoped buffer at what the line after the launch leaves. -/
theorem run_main : θ_run defs (onTc (τ := τ) (main (F := F))) (s₀ m ρ) (Pipeline.FramePost cfgs (dats m) 0 (V' m)) :=
  Pipeline.θ_run_frame_shared_carried_around cfgs (dats m) (0 : Fin 1) cellOf_inj winFacts₀0 block_pos0 arr_whole0 stage_whole0
    defs₀ Variants.none m ρ main (fun c => (body_obligation m c).loose) (fun _ _ => rfl) (V m) (V' m) [hostOps1]
    (hmain m Variants.none) (hsplit m) (hin m) (hout m) Stail (Wexit m) (Rexit m) tail_sub tail_fresh (hexit m) (hback m)

/-- No host operation before the launch writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- An argument is no window's array and the line after the launch does not write it: it ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 rfl (by decide))).trans (((V'_of_ne m c main_arg0 (by decide)).trans (Wexit_of_ne m c main_arg0 (by decide))).trans (V_main_arg0 m c)),
    ((h c).2 main_arg1 (Pipeline.mem_restRefs_of main_arg1 rfl (by decide))).trans (((V'_of_ne m c main_arg1 (by decide)).trans (Wexit_of_ne m c main_arg1 (by decide))).trans (V_main_arg1 m c)),
    ((h c).2 main_arg2 (Pipeline.mem_restRefs_of main_arg2 rfl (by decide))).trans (((V'_of_ne m c main_arg2 (by decide)).trans (Wexit_of_ne m c main_arg2 (by decide))).trans (V_main_arg2 m c))⟩) (run_main m ρ)

end Cert.KernelIdeal.Gen

end
-- ==== Proof.IdealCells.lean ====
/-
  What each case of the body leaves in the two accumulator cells and in the result cell, as the body's arithmetic on
  the six input blocks and on what the cells held: the tile's matrix K, its two sums added to the cells, and at the
  last point the quotient of the totals.
-/
import proofs.«130531_j39487929319478_1_alg».proof.Proof.IdealCarried
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The tile of the matrix K at grid point `i`, from the four blocks it is computed of. -/
abbrev tileK (i : grid0.Coords) (x0 x1 : Vec F S1024x64 .bf16) (x2 : Vec F S1024x1 .f32) (x3 : Vec F S1x1024 .f32) : FVec F S1024x1024 .f32 :=
  k0_pay6 i x0 x1 x2 x3

theorem cellN_middle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    cellNMiddle c i arg2 harg2 arg3 harg3 arg4 harg4 arg5 harg5 arg6 harg6 arg7 harg7 arg8 harg8 arg9 harg9 arg10 harg10 hc0 hc1 x0 x1 x2 x3 x4 x5 xs0 xs1 = k0_pay1 (tileK i x0 x1 x2 x3) x4 x5 xs0 := by
  unfold cellNMiddle
  rw [View.read_writes_eq_canon _ _ _ (coverNMiddle c i arg2 harg2 arg3 harg3 arg4 harg4 arg5 harg5 arg6 harg6 arg7 harg7 arg8 harg8 arg9 harg9 arg10 harg10 hc0 hc1 x0 x1 x2 x3 x4 x5 xs0 xs1)]
  unfold runMiddle
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S1024x64) hz, View.ld_unit_zero (S := S1024x1) hz, View.ld_unit_zero (S := S1x1024) hz, View.ld_unit_zero (S := S1x1) hz]

theorem cellD_middle (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    cellDMiddle c i arg2 harg2 arg3 harg3 arg4 harg4 arg5 harg5 arg6 harg6 arg7 harg7 arg8 harg8 arg9 harg9 arg10 harg10 hc0 hc1 x0 x1 x2 x3 x4 x5 xs0 xs1 = k0_pay2 (tileK i x0 x1 x2 x3) xs1 := by
  unfold cellDMiddle
  rw [View.read_writes_eq_canon _ _ _ (coverDMiddle c i arg2 harg2 arg3 harg3 arg4 harg4 arg5 harg5 arg6 harg6 arg7 harg7 arg8 harg8 arg9 harg9 arg10 harg10 hc0 hc1 x0 x1 x2 x3 x4 x5 xs0 xs1)]
  unfold runMiddle
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S1024x64) hz, View.ld_unit_zero (S := S1024x1) hz, View.ld_unit_zero (S := S1x1024) hz, View.ld_unit_zero (S := S1x1) hz]

theorem cellN_last (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    cellNLast c i arg2 harg2 arg3 harg3 arg4 harg4 arg5 harg5 arg6 harg6 arg7 harg7 arg8 harg8 arg9 harg9 arg10 harg10 hc0 hc1 x0 x1 x2 x3 x4 x5 xs0 xs1 = k0_pay1 (tileK i x0 x1 x2 x3) x4 x5 xs0 := by
  unfold cellNLast
  rw [View.read_writes_eq_canon _ _ _ (coverNLast c i arg2 harg2 arg3 harg3 arg4 harg4 arg5 harg5 arg6 harg6 arg7 harg7 arg8 harg8 arg9 harg9 arg10 harg10 hc0 hc1 x0 x1 x2 x3 x4 x5 xs0 xs1)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S1024x64) hz, View.ld_unit_zero (S := S1024x1) hz, View.ld_unit_zero (S := S1x1024) hz, View.ld_unit_zero (S := S1x1) hz]

theorem cellD_last (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    cellDLast c i arg2 harg2 arg3 harg3 arg4 harg4 arg5 harg5 arg6 harg6 arg7 harg7 arg8 harg8 arg9 harg9 arg10 harg10 hc0 hc1 x0 x1 x2 x3 x4 x5 xs0 xs1 = k0_pay2 (tileK i x0 x1 x2 x3) xs1 := by
  unfold cellDLast
  rw [View.read_writes_eq_canon _ _ _ (coverDLast c i arg2 harg2 arg3 harg3 arg4 harg4 arg5 harg5 arg6 harg6 arg7 harg7 arg8 harg8 arg9 harg9 arg10 harg10 hc0 hc1 x0 x1 x2 x3 x4 x5 xs0 xs1)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S1024x64) hz, View.ld_unit_zero (S := S1024x1) hz, View.ld_unit_zero (S := S1x1024) hz, View.ld_unit_zero (S := S1x1) hz]

theorem out_last (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬condFirst i) (hc1 : condLast i) (x0 : Vec F S1024x64 .bf16) (x1 : Vec F S1024x64 .bf16) (x2 : Vec F S1024x1 .f32) (x3 : Vec F S1x1024 .f32) (x4 : Vec F S1024x1 .f32) (x5 : Vec F S1x1024 .f32) (xs0 : Vec F S1x1 .f32) (xs1 : Vec F S1x1 .f32) :
    outLast c i arg2 harg2 arg3 harg3 arg4 harg4 arg5 harg5 arg6 harg6 arg7 harg7 arg8 harg8 arg9 harg9 arg10 harg10 hc0 hc1 x0 x1 x2 x3 x4 x5 xs0 xs1 = k0_pay3 (k0_pay1 (tileK i x0 x1 x2 x3) x4 x5 xs0) (k0_pay2 (tileK i x0 x1 x2 x3) xs1) := by
  unfold outLast
  rw [View.read_writes_eq_canon _ _ _ (coverOLast c i arg2 harg2 arg3 harg3 arg4 harg4 arg5 harg5 arg6 harg6 arg7 harg7 arg8 harg8 arg9 harg9 arg10 harg10 hc0 hc1 x0 x1 x2 x3 x4 x5 xs0 xs1)]
  unfold runLast
  dsimp only
  sl_unfold_words
  rw [View.canon_unit_zero hz]
  simp only [View.readCov_unit_zero (S := S1x1) _ hz]
  simp only [View.readAt_eq_ld, harg2.read_unread, harg3.read_unread, harg4.read_unread, harg5.read_unread, harg6.read_unread, harg7.read_unread, harg8.read_unread, harg9.read_unread, harg10.read_unread,
    View.ld_unit_zero (S := S1024x64) hz, View.ld_unit_zero (S := S1024x1) hz, View.ld_unit_zero (S := S1x1024) hz, View.ld_unit_zero (S := S1x1) hz]

theorem cellN_first (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) :
    cellNFirst c i arg2 harg2 arg3 harg3 arg4 harg4 arg5 harg5 arg6 harg6 arg7 harg7 arg8 harg8 arg9 harg9 arg10 harg10 hc0 hc1 x0 x1 x2 x3 x4 x5 = k0_pay1 (tileK i x0 x1 x2 x3) x4 x5 (k0_pay4 (F := F)) := by
  unfold cellNFirst
  rw [View.read_writes_eq_canon _ _ _ (coverNFirst c i arg2 harg2 arg3 harg3 arg4 harg4 arg5 harg5 arg6 harg6 arg7 harg7 arg8 harg8 arg9 harg9 arg10 harg10 hc0 hc1 x0 x1 x2 x3 x4 x5)]
  unfold runFirst
  dsimp only
  sl_unfold_words
  rw [View.canon_cons_unit_zero (S := S1x1) hz]
  simp only [View.readCov_unit_zero (S := S1x1) _ hz]
  simp only [View.readAt_eq_ld, harg2.read_unread, harg3.read_unread, harg4.read_unread, harg5.read_unread, harg6.read_unread, harg7.read_unread, harg8.read_unread, harg9.read_unread, harg10.read_unread,
    View.ld_unit_zero (S := S1024x64) hz, View.ld_unit_zero (S := S1024x1) hz, View.ld_unit_zero (S := S1x1024) hz, View.ld_unit_zero (S := S1x1) hz]

theorem cellD_first (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : condFirst i) (hc1 : ¬condLast i) (x0 : Vec F S1024x64 .bf16) (x1 : Vec F S1024x64 .bf16) (x2 : Vec F S1024x1 .f32) (x3 : Vec F S1x1024 .f32) (x4 : Vec F S1024x1 .f32) (x5 : Vec F S1x1024 .f32) :
    cellDFirst c i arg2 harg2 arg3 harg3 arg4 harg4 arg5 harg5 arg6 harg6 arg7 harg7 arg8 harg8 arg9 harg9 arg10 harg10 hc0 hc1 x0 x1 x2 x3 x4 x5 = k0_pay2 (tileK i x0 x1 x2 x3) (k0_pay5 (F := F)) := by
  unfold cellDFirst
  rw [View.read_writes_eq_canon _ _ _ (coverDFirst c i arg2 harg2 arg3 harg3 arg4 harg4 arg5 harg5 arg6 harg6 arg7 harg7 arg8 harg8 arg9 harg9 arg10 harg10 hc0 hc1 x0 x1 x2 x3 x4 x5)]
  unfold runFirst
  dsimp only
  sl_unfold_words
  rw [View.canon_cons_unit_zero (S := S1x1) hz]
  simp only [View.readCov_unit_zero (S := S1x1) _ hz]
  simp only [View.readAt_eq_ld, harg2.read_unread, harg3.read_unread, harg4.read_unread, harg5.read_unread, harg6.read_unread, harg7.read_unread, harg8.read_unread, harg9.read_unread, harg10.read_unread,
    View.ld_unit_zero (S := S1024x64) hz, View.ld_unit_zero (S := S1024x1) hz, View.ld_unit_zero (S := S1x1024) hz, View.ld_unit_zero (S := S1x1) hz]

end Cert.KernelIdeal.Gen

end
-- ==== Proof.IdealTotals.lean ====
/-
  The two running totals.  After the first point the cells hold the first tile's two sums added to zero; after every
  later point, that tile's sums added to what the point before left.  The result cell, written at the last point only,
  holds the quotient formed of the two totals after the last tile; the result array is that one cell, and the line
  after the launch reshapes it to a scalar.
-/
import proofs.«130531_j39487929319478_1_alg».proof.Proof.IdealCells
import proofs.«130531_j39487929319478_1_alg».proof.Proof.IdealLaunch
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The numerator and denominator totals after point `n`. -/
def totals (c : Dev nD) : (n : ℕ) → n < cfg0.N → Vec F S1x1 .f32 × Vec F S1x1 .f32
  | 0, h => (k0_pay1 (tileK (grid0.coords ⟨0, h⟩) (iblk m c 0 ⟨0, h⟩) (iblk m c 1 ⟨0, h⟩) (iblk m c 2 ⟨0, h⟩) (iblk m c 3 ⟨0, h⟩)) (iblk m c 4 ⟨0, h⟩) (iblk m c 5 ⟨0, h⟩) (k0_pay4 (F := F)),
      k0_pay2 (tileK (grid0.coords ⟨0, h⟩) (iblk m c 0 ⟨0, h⟩) (iblk m c 1 ⟨0, h⟩) (iblk m c 2 ⟨0, h⟩) (iblk m c 3 ⟨0, h⟩)) (k0_pay5 (F := F)))
  | n + 1, h => (k0_pay1 (tileK (grid0.coords ⟨n + 1, h⟩) (iblk m c 0 ⟨n + 1, h⟩) (iblk m c 1 ⟨n + 1, h⟩) (iblk m c 2 ⟨n + 1, h⟩) (iblk m c 3 ⟨n + 1, h⟩)) (iblk m c 4 ⟨n + 1, h⟩) (iblk m c 5 ⟨n + 1, h⟩) (totals c n (Nat.lt_of_succ_lt h)).1,
      k0_pay2 (tileK (grid0.coords ⟨n + 1, h⟩) (iblk m c 0 ⟨n + 1, h⟩) (iblk m c 1 ⟨n + 1, h⟩) (iblk m c 2 ⟨n + 1, h⟩) (iblk m c 3 ⟨n + 1, h⟩)) (totals c n (Nat.lt_of_succ_lt h)).2)

/-- What the cells hold after point `n` is the running totals: by induction on the point. -/
theorem cells_totals (c : Dev nD) : ∀ (n : ℕ) (h : n < cfg0.N), (outsAt m c n h).2 = totals m c n h
  | 0, h => by
    have hc0 : condFirst (grid0.coords ⟨0, h⟩) := (condFirst_iff ⟨0, h⟩).mpr rfl
    have hc1 : ¬condLast (grid0.coords ⟨0, h⟩) := fun e => absurd ((condLast_iff ⟨0, h⟩).mp e) (by show ¬ (0 : ℕ) = 63; omega)
    rw [outsAt_first m c ⟨0, h⟩ rfl hc0 hc1]
    show (_, _) = _
    rw [cellN_first, cellD_first]
    rfl
  | n + 1, h => by
    have hN : cfg0.N = 64 := N_0
    have hc0 : ¬condFirst (grid0.coords ⟨n + 1, h⟩) := fun e => absurd ((condFirst_iff ⟨n + 1, h⟩).mp e) (Nat.succ_ne_zero n)
    by_cases h1 : n + 1 = 63
    · have hc1 : condLast (grid0.coords ⟨n + 1, h⟩) := (condLast_iff ⟨n + 1, h⟩).mpr h1
      rw [outsAt_last m c ⟨n + 1, h⟩ h1 hc0 hc1]
      show (_, _) = _
      rw [cellN_last, cellD_last]
      show (k0_pay1 _ _ _ (outsAt m c n _).2.1, k0_pay2 _ (outsAt m c n _).2.2) = _
      rw [cells_totals c n]
      rfl
    · have hc1 : ¬condLast (grid0.coords ⟨n + 1, h⟩) := fun e => h1 ((condLast_iff ⟨n + 1, h⟩).mp e)
      rw [outsAt_middle m c ⟨n + 1, h⟩ (Nat.succ_ne_zero n) h1 hc0 hc1]
      show (_, _) = _
      rw [cellN_middle, cellD_middle]
      show (k0_pay1 _ _ _ (outsAt m c n _).2.1, k0_pay2 _ (outsAt m c n _).2.2) = _
      rw [cells_totals c n]
      rfl

theorem lt63 : 63 < cfg0.N := by rw [show cfg0.N = 64 from N_0]; decide
/-- The last point. -/
abbrev tLast : Fin cfg0.N := ⟨63, lt63⟩

/-- The result cell: the quotient formed of the two totals after the last tile. -/
abbrev resultCell (c : Dev nD) : Buf (Elt F) ((c : Thread nD τ).loc main_v11) :=
  k0_pay3 (totals m c 63 lt63).1 (totals m c 63 lt63).2

/-- The last point stores it. -/
theorem out_at_last (c : Dev nD) : (outsAt m c 63 lt63).1 = resultCell m c := by
  have hc0 : ¬condFirst (grid0.coords tLast) := fun e => absurd ((condFirst_iff tLast).mp e) (by show ¬ (63 : ℕ) = 0; omega)
  have hc1 : condLast (grid0.coords tLast) := (condLast_iff tLast).mpr rfl
  rw [show outsAt m c 63 lt63 = outsAt m c tLast.val tLast.isLt from rfl, outsAt_last m c tLast rfl hc0 hc1]
  dsimp only
  rw [out_last]
  show k0_pay3 (k0_pay1 _ _ _ (outsAt m c 62 _).2.1) (k0_pay2 _ (outsAt m c 62 _).2.2) = _
  rw [cells_totals m c 62]
  rfl

end Cert.KernelIdeal.Gen

end
-- ==== Proof.IdealResult.lean ====
/-
  The result array is one cell.  The only write-back into it is the last point's, which writes the quotient of the
  two totals; the line after the launch reshapes the cell to a scalar.  So every run ends with the scalar result at
  that quotient and the three arguments unchanged.
-/
import proofs.«130531_j39487929319478_1_alg».proof.Proof.IdealTotals

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one write-back, at the last point, writes the result cell. -/
theorem flushed_res (c : Dev nD) (t : Fin cfg0.N) (hf : (cfg0.win 6).flush t = true) :
    (dats m 0 c).flushed 6 t = ((cfg0.win 6).blk t).view.read (Elt F) (resultCell m c) := by
  have hN : cfg0.N = 64 := N_0
  have h63 : t.val = 63 := by have := (flush0_6 t).mp hf; have := t.isLt; omega
  obtain rfl : t = tLast := Fin.ext h63
  show (cfg0.win 6).cut (grid0.coords tLast) ((dats m 0 c).after 6 tLast) = _
  rw [after6, show outsAt m c tLast.val tLast.isLt = outsAt m c 63 lt63 from rfl, out_at_last]
  have hz' : (fun a => win0_6.index tLast a * main_v11.ty.shape.size a) = fun _ => 0 := funext fun a => by fin_cases a <;> decide
  exact (Memref.read_access_unit_zero (Elt F) main_v11 hz' (fun a => by rw [congrFun hz' a]; simp) (resultCell m c)).symm

/-- So the result array ends holding the result cell: the last point's block is the whole array. -/
theorem final_res (c : Dev nD) : (dats m 0 c).arrAt 6 cfg0.N = resultCell m c :=
  (dats m 0 c).arrAt_eq_of_cover 6 (resultCell m c) (flushed_res m c) fun i =>
    ⟨tLast, (flush0_6 tLast).mpr rfl, by
      show i ∈ ((View.whole main_v11).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- The scalar the line after the launch leaves: the result cell reshaped. -/
theorem V'_result (c : Dev nD) :
    V' m c main_v12 = (shapeCast S_ (resultCell m c) shapeCasts_S1x1_S_ : (⟨S_, .f32⟩ : BufTy).Contents (Elt F)) := by
  unfold V'
  show StableHlo.after hostOps1 _ (Proc.devRef .tc main_v12) = _
  after_results
  rw [Wexit_res, final_res]
  rfl

/-- The run, read: the scalar result at the reshaped quotient of the totals, the arguments unchanged. -/
theorem run_value : θ_run defs (onTc (τ := τ) (main (F := F))) ⟨m, fun _ => 0, ρ⟩ fun r => ∀ c : Dev nD,
      r.2.mem ((c : Thread nD τ).loc main_v12) = (shapeCast S_ (resultCell m c) shapeCasts_S1x1_S_ : (⟨S_, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
    ((h c).2 main_v12 (Pipeline.mem_restRefs_of main_v12 rfl (by decide))).trans (V'_result m c),
    ((h c).2 main_arg0 (Pipeline.mem_restRefs_of main_arg0 rfl (by decide))).trans (((V'_of_ne m c main_arg0 (by decide)).trans (Wexit_of_ne m c main_arg0 (by decide))).trans (V_main_arg0 m c)),
    ((h c).2 main_arg1 (Pipeline.mem_restRefs_of main_arg1 rfl (by decide))).trans (((V'_of_ne m c main_arg1 (by decide)).trans (Wexit_of_ne m c main_arg1 (by decide))).trans (V_main_arg1 m c)),
    ((h c).2 main_arg2 (Pipeline.mem_restRefs_of main_arg2 rfl (by decide))).trans (((V'_of_ne m c main_arg2 (by decide)).trans (Wexit_of_ne m c main_arg2 (by decide))).trans (V_main_arg2 m c))⟩) (run_main m ρ)

end Cert.KernelIdeal.Gen

end
-- ==== Proof.Blocks.lean ====
/-
  What the six input windows hand the body at point t of the 8 × 8 grid: tile row t / 8 and tile column t % 8.  Each
  block is the part of its array at the tile's rows (or columns): row r of a row block is global row 1024 (t / 8) + r,
  lane q of a column block is global column 1024 (t % 8) + q.
-/
import proofs.«130531_j39487929319478_1_alg».proof.Proof.IdealCarried
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The global row of row `r` of the tile at point `t`, and the global column of its lane `q`. -/
def gRow (t : Fin cfg0.N) (r : Fin 1024) : Fin 8192 :=
  ⟨1024 * (t.val / 8) + r.val, by have := t.isLt; have hN : cfg0.N = 64 := N_0; have := r.isLt; omega⟩
def gCol (t : Fin cfg0.N) (q : Fin 1024) : Fin 8192 :=
  ⟨1024 * (t.val % 8) + q.val, by have := q.isLt; omega⟩

/-- The grid's coordinates at point `t`. -/
theorem coords_eq : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- Each window's block index at point `t`. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
theorem index2 : ∀ t : Fin cfg0.N, win0_2.index t 0 = t.val / 8 ∧ win0_2.index t 1 = 0 :=
  (by decide +kernel : ∀ t : Fin grid0.N, win0_2.index t 0 = t.val / 8 ∧ win0_2.index t 1 = 0)
theorem index3 : ∀ t : Fin cfg0.N, win0_3.index t 0 = 0 ∧ win0_3.index t 1 = t.val % 8 :=
  (by decide +kernel : ∀ t : Fin grid0.N, win0_3.index t 0 = 0 ∧ win0_3.index t 1 = t.val % 8)
theorem index4 : ∀ t : Fin cfg0.N, win0_4.index t 0 = t.val / 8 ∧ win0_4.index t 1 = 0 :=
  (by decide +kernel : ∀ t : Fin grid0.N, win0_4.index t 0 = t.val / 8 ∧ win0_4.index t 1 = 0)
theorem index5 : ∀ t : Fin cfg0.N, win0_5.index t 0 = 0 ∧ win0_5.index t 1 = t.val % 8 :=
  (by decide +kernel : ∀ t : Fin grid0.N, win0_5.index t 0 = 0 ∧ win0_5.index t 1 = t.val % 8)

/-- The left row block: rows of the scaled-input array at the tile's rows. -/
theorem blk0_apply (c : Dev nD) (t : Fin cfg0.N) (r : Fin 1024) (k : Fin 64) :
    (iblk m c 0 t : Vec F S1024x64 .bf16) (ix2 r k) = V m c main_v4 (ix2 (gRow t r) k) := by
  unfold iblk
  rw [View.read_apply]
  show V m c main_v4 _ = V m c main_v4 _
  congr 1
  funext a
  apply Fin.ext
  match a with
  | ⟨0, _⟩ => show win0_0.index t 0 * 1024 + 1 * r.val = 1024 * (t.val / 8) + r.val; rw [(index0 t).1]; omega
  | ⟨1, _⟩ => show win0_0.index t 1 * 64 + 1 * k.val = k.val; rw [(index0 t).2]; omega

/-- The right row block: rows of the same array at the tile's columns. -/
theorem blk1_apply (c : Dev nD) (t : Fin cfg0.N) (q : Fin 1024) (k : Fin 64) :
    (iblk m c 1 t : Vec F S1024x64 .bf16) (ix2 q k) = V m c main_v4 (ix2 (gCol t q) k) := by
  unfold iblk
  rw [View.read_apply]
  show V m c main_v4 _ = V m c main_v4 _
  congr 1
  funext a
  apply Fin.ext
  match a with
  | ⟨0, _⟩ => show win0_1.index t 0 * 1024 + 1 * q.val = 1024 * (t.val % 8) + q.val; rw [(index1 t).1]; omega
  | ⟨1, _⟩ => show win0_1.index t 1 * 64 + 1 * k.val = k.val; rw [(index1 t).2]; omega

/-- The squared norms as a column, at the tile's rows. -/
theorem blk2_apply (c : Dev nD) (t : Fin cfg0.N) (r : Fin 1024) :
    (iblk m c 2 t : Vec F S1024x1 .f32) (ix2 r (0 : Fin 1)) = V m c main_v7 (ix2 (gRow t r) (0 : Fin 1)) := by
  unfold iblk
  rw [View.read_apply]
  show V m c main_v7 _ = V m c main_v7 _
  congr 1
  funext a
  apply Fin.ext
  match a with
  | ⟨0, _⟩ => show win0_2.index t 0 * 1024 + 1 * r.val = 1024 * (t.val / 8) + r.val; rw [(index2 t).1]; omega
  | ⟨1, _⟩ => show win0_2.index t 1 * 1 + 1 * 0 = 0; rw [(index2 t).2]

/-- The squared norms as a row, at the tile's columns. -/
theorem blk3_apply (c : Dev nD) (t : Fin cfg0.N) (q : Fin 1024) :
    (iblk m c 3 t : Vec F S1x1024 .f32) (ix2 (0 : Fin 1) q) = V m c main_v8 (ix2 (0 : Fin 1) (gCol t q)) := by
  unfold iblk
  rw [View.read_apply]
  show V m c main_v8 _ = V m c main_v8 _
  congr 1
  funext a
  apply Fin.ext
  match a with
  | ⟨0, _⟩ => show win0_3.index t 0 * 1 + 1 * 0 = 0; rw [(index3 t).1]
  | ⟨1, _⟩ => show win0_3.index t 1 * 1024 + 1 * q.val = 1024 * (t.val % 8) + q.val; rw [(index3 t).2]; omega

/-- The targets as a column, at the tile's rows. -/
theorem blk4_apply (c : Dev nD) (t : Fin cfg0.N) (r : Fin 1024) :
    (iblk m c 4 t : Vec F S1024x1 .f32) (ix2 r (0 : Fin 1)) = V m c main_v9 (ix2 (gRow t r) (0 : Fin 1)) := by
  unfold iblk
  rw [View.read_apply]
  show V m c main_v9 _ = V m c main_v9 _
  congr 1
  funext a
  apply Fin.ext
  match a with
  | ⟨0, _⟩ => show win0_4.index t 0 * 1024 + 1 * r.val = 1024 * (t.val / 8) + r.val; rw [(index4 t).1]; omega
  | ⟨1, _⟩ => show win0_4.index t 1 * 1 + 1 * 0 = 0; rw [(index4 t).2]

/-- The targets as a row, at the tile's columns. -/
theorem blk5_apply (c : Dev nD) (t : Fin cfg0.N) (q : Fin 1024) :
    (iblk m c 5 t : Vec F S1x1024 .f32) (ix2 (0 : Fin 1) q) = V m c main_v10 (ix2 (0 : Fin 1) (gCol t q)) := by
  unfold iblk
  rw [View.read_apply]
  show V m c main_v10 _ = V m c main_v10 _
  congr 1
  funext a
  apply Fin.ext
  match a with
  | ⟨0, _⟩ => show win0_5.index t 0 * 1 + 1 * 0 = 0; rw [(index5 t).1]
  | ⟨1, _⟩ => show win0_5.index t 1 * 1024 + 1 * q.val = 1024 * (t.val % 8) + q.val; rw [(index5 t).2]; omega

end Cert.KernelIdeal.Gen

end
-- ==== Proof.LibKeepdims.lean ====
/-
  Two layout readings of a column kept beside a matrix: a vector of length a viewed as an [a, 1] column reads its
  entry at the row, and an [a, 1] column spread over b lanes reads, at (p, c), its entry at row p.
-/
import Idealize.ShloMosaic.Lib.Pipeline.Value
import Idealize.ShloMosaic.Lib.ValueIdx

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.TileK.lean ====
/-
  One tile of the matrix K, read at the extended reals: at row r and lane q of tile (i, j) it is 1 where the global row
  1024 i + r and the global column 1024 j + q coincide, and elsewhere exp(0 − max(s_r + s_q − 2 · ⟨x_r, x_q⟩, 0)), the inner
  product taken over the 64 features of the two row blocks.
-/
import proofs.«130531_j39487929319478_1_alg».proof.Proof.Gen.KernelIdeal.Skeleton
import proofs.«130531_j39487929319478_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- The block product's dimension numbers: rows of the left block against rows of the right block, transposed. -/
abbrev dd : DotDims S1024x64 S64x1024 S1024x1024 := dot_S1024x64_S64x1024_S1024x1024_1_0_0_1_n_n

theorem lhs0 (i : S1024x1024.Idx) (q : dd.contr.Idx) : (dd.lhsIdx i q 0).val = (i 0).val := by
  unfold DotDims.lhsIdx
  rw [dif_neg (show ¬(0 : Fin S1024x64.rank) ∈ dd.lhsBatch by decide), dif_pos (show (0 : Fin S1024x64.rank) ∈ dd.lhsNonContracting by decide)]
  rfl
theorem lhs1 (i : S1024x1024.Idx) (q : dd.contr.Idx) : (dd.lhsIdx i q 1).val = (q ⟨0, by decide⟩).val :=
  dd.lhsIdx_val_of_single rfl i q
theorem rhs0 (i : S1024x1024.Idx) (q : dd.contr.Idx) : (dd.rhsIdx i q 0).val = (q ⟨0, by decide⟩).val :=
  dd.rhsIdx_val_of_single rfl i q
theorem rhs1 (i : S1024x1024.Idx) (q : dd.contr.Idx) : (dd.rhsIdx i q 1).val = (i 1).val := by
  unfold DotDims.rhsIdx
  rw [dif_neg (show ¬(1 : Fin S64x1024.rank) ∈ dd.rhsBatch by decide), dif_pos (show (1 : Fin S64x1024.rank) ∈ dd.rhsNonContracting by decide)]
  rfl

/-- The block product at (r, q): the inner product of row r of the left block with row q of the right block. -/
theorem gram_apply (y0 : FVec Ideal S1024x64 .bf16) (y1 : FVec Ideal S1024x64 .bf16) (r q : Fin 1024) :
    FloatOps.matmul dd none y0 (transpose S64x1024 [1, 0] y1 transposes_S1024x64_p1_0_S64x1024) (constant S1024x1024 .f32 0x00000000#32) (ix2 r q)
      = ∑ k : Fin 64, y0 (ix2 r k) * y1 (ix2 q k) := by
  refine (Ideal.matmul_constant_zero_apply dd none y0 _ (ix2 r q)).trans ?_
  rw [← Equiv.sum_comp (contrEquiv1 dd 64 rfl rfl).symm]
  refine Finset.sum_congr rfl fun k _ => ?_
  have hk := contrEquiv1_symm_val dd 64 rfl rfl k
  have el : dd.lhsIdx (ix2 r q) ((contrEquiv1 dd 64 rfl rfl).symm k) = ix2 r k := funext fun a => Fin.ext (by
    match a with
    | ⟨0, _⟩ => exact lhs0 _ _
    | ⟨1, _⟩ => exact (lhs1 _ _).trans hk)
  have er : dd.rhsIdx (ix2 r q) ((contrEquiv1 dd 64 rfl rfl).symm k) = ix2 k q := funext fun a => Fin.ext (by
    match a with
    | ⟨0, _⟩ => exact (rhs0 _ _).trans hk
    | ⟨1, _⟩ => exact rhs1 _ _)
  rw [el, er, transpose_ix2_apply]

theorem cmpi_apply' {s : Shape} {w : Nat} (p : CmpIPredicate) (x y : IVec s w) (i : s.Idx) : cmpi p x y i = IntOp.cmpi p (x i) (y i) := rfl
theorem addi_apply' {s : Shape} {w : Nat} (x y : IVec s w) (i : s.Idx) : addi x y i = IntOp.addi (x i) (y i) := rfl
theorem exp_apply' {s : Shape} {φ : FTy} (x : FVec Ideal s φ) (i : s.Idx) : exp x i = Ideal.exp (x i) := rfl

set_option maxHeartbeats 400000 in
/-- The tile of K at (r, q). -/
theorem tileK_apply (i : grid0.Coords) (x0 x1 : Vec Ideal S1024x64 .bf16) (x2 : Vec Ideal S1024x1 .f32) (x3 : Vec Ideal S1x1024 .f32) (r q : Fin 1024) :
    k0_pay6 (F := Ideal) i x0 x1 x2 x3 (ix2 r q)
      = Scalar.select (IntOp.cmpi .eq (BitVec.ofNat 32 r.val + BitVec.ofNat 32 (i 0).val * 1024#32) (BitVec.ofNat 32 q.val + BitVec.ofNat 32 (i 1).val * 1024#32))
          (Ideal.ofBits .f32 0x3F800000#32)
          (Ideal.exp (Ideal.ofBits .f32 0x00000000#32 - max (x2 (ix2 r (0 : Fin 1)) + x3 (ix2 (0 : Fin 1) q)
              - Ideal.ofBits .f32 0x40000000#32 * ∑ k : Fin 64, x0 (ix2 r k) * x1 (ix2 q k)) (Ideal.ofBits .f32 0x00000000#32))) := by
  delta k0_pay6
  dsimp only
  simp only [select_apply, cmpi_apply', exp_apply', subf_apply, maximumf_apply, addf_apply, mulf_apply, broadcast_apply, matmul]
  rw [shapeCast_self x0, shapeCast_self x1, shapeCast_self x2, shapeCast_self x3]
  rw [gram_apply, broadcastTo_a1_ab_apply x2, broadcastTo_1b_ab_apply x3, broadcastTo_a1_ab_apply, broadcastTo_1b_ab_apply]
  simp only [addi_apply', broadcast_apply, iota_single_apply]
  rw [iota_single_apply, iota_single_apply]
  rfl

end Cert.KernelIdeal.Tile

end
-- ==== Proof.TileSums.lean ====
/-
  A tile's two sums, read at the extended reals.  The numerator cell gains the sum over the tile of K(r,q) · (t_r · t_q),
  the denominator cell the sum of K(r,q)², each formed as row sums over the lanes followed by one sum over the rows, all
  from zero; the result cell holds (0 − N) / (8192 · √D).
-/
import proofs.«130531_j39487929319478_1_alg».proof.Proof.Gen.KernelIdeal.Skeleton
import proofs.«130531_j39487929319478_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- A sum along the lanes of a square tile, from zero, at row `r`. -/
theorem laneSum_apply (src : FVec Ideal S1024x1024 .f32) (r : Fin 1024) :
    multiReduction .add [1] S1024 src 0x00000000#32 reduces_S1024x1024_S1024 (.inl rfl) rfl (ix1 r) = ∑ q : Fin 1024, src (ix2 r q) :=
  (Ideal.multiReduction_add_single src 0x00000000#32 reduces_S1024x1024_S1024 (.inl rfl) rfl (ix1 r)).trans
    (Finset.sum_congr rfl fun q _ => congrArg src (funext fun a => Fin.ext (by match a with | ⟨0, _⟩ => rfl | ⟨1, _⟩ => rfl)))

/-- A sum down a column vector, from zero. -/
theorem colSum_apply (src : FVec Ideal S1024x1 .f32) :
    multiReduction .add [0] S1 src 0x00000000#32 reduces_S1024x1_S1 (.inl rfl) rfl (ix1 (0 : Fin 1)) = ∑ r : Fin 1024, src (ix2 r (0 : Fin 1)) :=
  (Ideal.multiReduction_add_single src 0x00000000#32 reduces_S1024x1_S1 (.inl rfl) rfl (ix1 (0 : Fin 1))).trans
    (Finset.sum_congr rfl fun r _ => congrArg src (funext fun a => Fin.ext (by match a with | ⟨0, _⟩ => rfl | ⟨1, _⟩ => rfl)))

/-- The sum over a tile formed the kernel's way: lane sums, kept as a column, then the column's sum, kept as one cell. -/
theorem tileSum_apply (src : FVec Ideal S1024x1024 .f32) :
    shapeCast S1x1 (multiReduction .add [0] S1
      (shapeCast S1024x1 (multiReduction .add [1] S1024 src 0x00000000#32 reduces_S1024x1024_S1024 (.inl rfl) rfl) shapeCasts_S1024_S1024x1)
      0x00000000#32 reduces_S1024x1_S1 (.inl rfl) rfl) shapeCasts_S1_S1x1 (ix2 (0 : Fin 1) (0 : Fin 1))
      = ∑ r : Fin 1024, ∑ q : Fin 1024, src (ix2 r q) := by
  refine (shapeCast_a_1a_apply _ shapeCasts_S1_S1x1 (0 : Fin 1) (0 : Fin 1)).trans ?_
  refine (colSum_apply _).trans (Finset.sum_congr rfl fun r _ => ?_)
  refine (shapeCast_a_a1_apply _ shapeCasts_S1024_S1024x1 r (0 : Fin 1)).trans ?_
  exact laneSum_apply src r

variable (K : FVec Ideal S1024x1024 .f32) (a : Vec Ideal S1024x1 .f32) (b : Vec Ideal S1x1024 .f32) (s n d : Vec Ideal S1x1 .f32)

/-- The numerator cell after a tile. -/
theorem pay1_apply : k0_pay1 (F := Ideal) K a b s (ix2 (0 : Fin 1) (0 : Fin 1))
    = s (ix2 (0 : Fin 1) (0 : Fin 1)) + ∑ r : Fin 1024, ∑ q : Fin 1024, K (ix2 r q) * (a (ix2 r (0 : Fin 1)) * b (ix2 (0 : Fin 1) q)) := by
  unfold k0_pay1
  simp only [shapeCast_self]
  refine congrArg (s (ix2 (0 : Fin 1) (0 : Fin 1)) + ·) ?_
  refine (tileSum_apply _).trans (Finset.sum_congr rfl fun r _ => Finset.sum_congr rfl fun q _ => ?_)
  show K (ix2 r q) * (broadcastTo S1024x1024 a broadcasts_S1024x1_S1024x1024 (ix2 r q) * broadcastTo S1024x1024 b broadcasts_S1x1024_S1024x1024 (ix2 r q)) = _
  rw [broadcastTo_a1_ab_apply a broadcasts_S1024x1_S1024x1024 r q, broadcastTo_1b_ab_apply b broadcasts_S1x1024_S1024x1024 r q]

/-- The denominator cell after a tile. -/
theorem pay2_apply : k0_pay2 (F := Ideal) K s (ix2 (0 : Fin 1) (0 : Fin 1))
    = s (ix2 (0 : Fin 1) (0 : Fin 1)) + ∑ r : Fin 1024, ∑ q : Fin 1024, K (ix2 r q) * K (ix2 r q) := by
  unfold k0_pay2
  simp only [shapeCast_self]
  refine congrArg (s (ix2 (0 : Fin 1) (0 : Fin 1)) + ·) ?_
  exact (tileSum_apply _).trans (Finset.sum_congr rfl fun r _ => Finset.sum_congr rfl fun q _ => rfl)

/-- The result cell, from the two totals. -/
theorem pay3_apply : k0_pay3 (F := Ideal) n d (ix2 (0 : Fin 1) (0 : Fin 1))
    = Ideal.div (Ideal.ofBits .f32 0x00000000#32 - n (ix2 (0 : Fin 1) (0 : Fin 1)))
        (Ideal.ofBits .f32 0x46000000#32 * FloatOps.sqrt (F := Ideal) (φ := .f32) (d (ix2 (0 : Fin 1) (0 : Fin 1)))) := rfl

/-- Both cells start from zero. -/
theorem pay4_apply : k0_pay4 (F := Ideal) (ix2 (0 : Fin 1) (0 : Fin 1)) = Ideal.ofBits .f32 0x00000000#32 := rfl
theorem pay5_apply : k0_pay5 (F := Ideal) (ix2 (0 : Fin 1) (0 : Fin 1)) = Ideal.ofBits .f32 0x00000000#32 := rfl

end Cert.KernelIdeal.Tile

end
-- ==== Proof.Diag.lean ====
/-
  The diagonal test.  A tile's row r and lane q are numbered globally 1024 i + r and 1024 j + q; the kernel compares the
  two numbers as 32-bit words, which hold them exactly, so the test picks out exactly the pairs on the diagonal.
-/
import Idealize.ShloMosaic.PureOps
import Idealize.ShloMosaic.Lib.ValueIdx

noncomputable section

namespace Cert.KernelIdeal.Tile

open Idealize.ShloMosaic Idealize.ShloMosaic.ValueIdx

theorem word_val (a b : Nat) (ha : a < 1024) (hb : b < 8) :
    (BitVec.ofNat 32 a + BitVec.ofNat 32 b * 1024#32).toNat = 1024 * b + a := by
  simp only [BitVec.toNat_add, BitVec.toNat_mul, BitVec.toNat_ofNat]
  omega

theorem select_diag {α : Type} (i0 i1 : Fin 8) (r q : Fin 1024) (x y : α) :
    Scalar.select (IntOp.cmpi .eq (BitVec.ofNat 32 r.val + BitVec.ofNat 32 i0.val * 1024#32) (BitVec.ofNat 32 q.val + BitVec.ofNat 32 i1.val * 1024#32)) x y
      = if 1024 * i0.val + r.val = 1024 * i1.val + q.val then x else y := by
  have e0 := word_val r.val i0.val r.isLt i0.isLt
  have e1 := word_val q.val i1.val q.isLt i1.isLt
  by_cases h : 1024 * i0.val + r.val = 1024 * i1.val + q.val
  · have e : BitVec.ofNat 32 r.val + BitVec.ofNat 32 i0.val * 1024#32 = BitVec.ofNat 32 q.val + BitVec.ofNat 32 i1.val * 1024#32 :=
      BitVec.eq_of_toNat_eq (by rw [e0, e1, h])
    rw [if_pos h, e]
    simp [IntOp.cmpi, Scalar.select]
  · have e : BitVec.ofNat 32 r.val + BitVec.ofNat 32 i0.val * 1024#32 ≠ BitVec.ofNat 32 q.val + BitVec.ofNat 32 i1.val * 1024#32 :=
      fun e => h (by rw [← e0, ← e1, e])
    have hb : (BitVec.ofNat 32 r.val + BitVec.ofNat 32 i0.val * 1024#32 == BitVec.ofNat 32 q.val + BitVec.ofNat 32 i1.val * 1024#32) = false :=
      beq_eq_false_iff_ne.mpr e
    rw [if_neg h]
    simp [IntOp.cmpi, Scalar.select, hb]

end Cert.KernelIdeal.Tile

end
-- ==== Proof.Spec.lean ====
/-
  The specification: the kernel-alignment loss as one function of the three arguments, over the extended reals.

  The rows of X are scaled by the square roots of the parameters; s_p is the squared norm of scaled row p (a sum from
  zero), g_pq the inner product of scaled rows p and q; K_pq is 1 on the diagonal and exp(0 − max(s_p + s_q − 2 g_pq, 0))
  off it; the loss is (0 − ∑ K_pq t_p t_q) / (8192 · √(∑ K_pq²)).
-/
import Idealize.ShloMosaic.PureOps.Ideal
import Idealize.ShloMosaic.Lib.ValueIdx

noncomputable section

namespace Cert.Spec

open Idealize.ShloMosaic Idealize.ShloMosaic.ValueIdx

abbrev S8192x64 : Shape := ⟨2, ![8192, 64]⟩
abbrev S8192 : Shape := ⟨1, ![8192]⟩
abbrev S64 : Shape := ⟨1, ![64]⟩

/-- The literals of both programs, as the extended reals they denote (never evaluated but for zero). -/
abbrev zero : EReal := Ideal.ofBits .f32 0x00000000#32
abbrev one : EReal := Ideal.ofBits .f32 0x3F800000#32
abbrev two : EReal := Ideal.ofBits .f32 0x40000000#32
abbrev n8192 : EReal := Ideal.ofBits .f32 0x46000000#32

variable (X : S8192x64.Idx → EReal) (tg : S8192.Idx → EReal) (par : S64.Idx → EReal)

/-- Scaled row p at feature k. -/
def xs (p : Fin 8192) (k : Fin 64) : EReal := X (ix2 p k) * Ideal.sqrt (par (ix1 k))
/-- The squared norm of scaled row p, summed from zero. -/
def sq (p : Fin 8192) : EReal := zero + ∑ k : Fin 64, xs X par p k * xs X par p k
/-- The inner product of scaled rows p and q. -/
def gram (p q : Fin 8192) : EReal := ∑ k : Fin 64, xs X par p k * xs X par q k
/-- The matrix K off the diagonal. -/
def kOff (p q : Fin 8192) : EReal := Ideal.exp (zero - max (sq X par p + sq X par q - two * gram X par p q) zero)
/-- The matrix K. -/
def kmat (p q : Fin 8192) : EReal := if p = q then one else kOff X par p q
/-- The numerator and denominator sums. -/
def num : EReal := ∑ p : Fin 8192, ∑ q : Fin 8192, kmat X par p q * (tg (ix1 p) * tg (ix1 q))
def den : EReal := ∑ p : Fin 8192, ∑ q : Fin 8192, kmat X par p q * kmat X par p q
/-- The loss. -/
def loss : EReal := Ideal.div (zero - num X tg par) (n8192 * Ideal.sqrt (den X par))

end Cert.Spec

end
-- ==== Proof.SpecLaws.lean ====
/-
  Laws of the specification: the 8 × 8 tiles of 1024 × 1024 pairs tile the 8192 × 8192 pairs, a quotient of a
  negated numerator is the negated quotient, and the scale of the loss is not zero.
-/
import Mathlib.Algebra.BigOperators.Fin
import Mathlib.Logic.Equiv.Fin.Basic
import Idealize.ShloMosaic.PureOps.Ideal
import Idealize.ShloMosaic.PureOps.Ideal.Laws
import Idealize.ShloMosaic.Lib.IdealHost
import proofs.«130531_j39487929319478_1_alg».proof.Proof.Spec

noncomputable section

namespace Cert.Spec

open Idealize.ShloMosaic Idealize.ShloMosaic.ValueIdx

/-- A sum over `Fin N` with `N = m * n` is the sum over `m` blocks of `n` consecutive indices: index
`n * a + b` is element `b` of block `a`. -/
theorem sum_fin_blocks {M : Type*} [AddCommMonoid M] {N : ℕ} (m n : ℕ) (h : N = m * n) (f : ℕ → M) :
    ∑ p : Fin N, f p.val = ∑ a : Fin m, ∑ b : Fin n, f (n * a.val + b.val) := by
  subst h
  calc ∑ p : Fin (m * n), f p.val
      = ∑ x : Fin m × Fin n, f (finProdFinEquiv x).val :=
        (Equiv.sum_comp finProdFinEquiv (fun p : Fin (m * n) => f p.val)).symm
    _ = ∑ a : Fin m, ∑ b : Fin n, f (n * a.val + b.val) := by
        rw [Fintype.sum_prod_type]
        refine Finset.sum_congr rfl (fun a _ => Finset.sum_congr rfl (fun b _ => ?_))
        rw [finProdFinEquiv_apply_val, add_comm]

/-- The 8 × 8 tiles of 1024 × 1024 tile the 8192 × 8192 pairs: tile `t` holds the rows of block `t / 8` and the
columns of block `t % 8`. Both sides are the fourfold sum over (row block, row, column block, column); they differ
by the order of the two middle sums. -/
theorem sum_tiles {M : Type*} [AddCommMonoid M] (g : ℕ → ℕ → M) :
    ∑ t : Fin 64, ∑ r : Fin 1024, ∑ q : Fin 1024,
        g (1024 * (t.val / 8) + r.val) (1024 * (t.val % 8) + q.val)
      = ∑ p : Fin 8192, ∑ q : Fin 8192, g p.val q.val := by
  have hL := sum_fin_blocks (M := M) 8 8 (by norm_num : 64 = 8 * 8)
    (fun t => ∑ r : Fin 1024, ∑ q : Fin 1024, g (1024 * (t / 8) + r.val) (1024 * (t % 8) + q.val))
  have hR := sum_fin_blocks (M := M) 8 1024 (by norm_num : 8192 = 8 * 1024)
    (fun p => ∑ q : Fin 8192, g p q.val)
  have hR2 : ∀ p : ℕ, ∑ q : Fin 8192, g p q.val
      = ∑ b : Fin 8, ∑ c : Fin 1024, g p (1024 * b.val + c.val) :=
    fun p => sum_fin_blocks (M := M) 8 1024 (by norm_num : 8192 = 8 * 1024) (fun q => g p q)
  refine hL.trans ?_
  refine Eq.trans ?_ hR.symm
  refine Finset.sum_congr rfl (fun a _ => ?_)
  have hdiv : ∀ b : Fin 8, (8 * a.val + b.val) / 8 = a.val := fun b => by
    have := b.isLt
    omega
  have hmod : ∀ b : Fin 8, (8 * a.val + b.val) % 8 = b.val := fun b => by
    have := b.isLt
    omega
  simp only [hdiv, hmod, hR2]
  exact Finset.sum_comm

/-- A quotient whose numerator is subtracted from zero is the negated quotient, at a divisor that is not zero:
`(0 - a) * b⁻¹ = (-a) * b⁻¹ = -(a * b⁻¹)`. -/
theorem div_zero_sub (a b : EReal) (hb : b ≠ 0) : Ideal.div (zero - a) b = -(Ideal.div a b) := by
  unfold Ideal.div
  rw [if_neg hb, if_neg hb]
  show (Ideal.ofBits .f32 0x00000000#32 - a) * b⁻¹ = -(a * b⁻¹)
  rw [Ideal.ofBits_zero_f32, zero_sub, EReal.neg_mul]

/-- The exponential is nowhere negative: it is `0` at `⊥`, `⊤` at `⊤`, and the real exponential between. -/
theorem exp_nonneg (x : EReal) : 0 ≤ Ideal.exp x := by
  induction x using EReal.rec with
  | bot => exact le_refl (0 : EReal)
  | coe r => exact EReal.coe_nonneg.mpr (Real.exp_pos r).le
  | top => exact le_top

/-- The square root of a positive extended real is not zero: it is `⊤` at `⊤` and the positive real root at a
positive real. -/
theorem sqrt_ne_zero_of_pos {x : EReal} (hx : 0 < x) : Ideal.sqrt x ≠ 0 := by
  induction x using EReal.rec with
  | bot => exact absurd hx (not_lt_bot)
  | coe r =>
    have hr : 0 < r := EReal.coe_pos.mp hx
    show (if r < 0 then (⊥ : EReal) else (Real.sqrt r : EReal)) ≠ 0
    rw [if_neg (not_lt.mpr hr.le)]
    exact (EReal.coe_pos.mpr (Real.sqrt_pos.mpr hr)).ne'
  | top => exact EReal.top_ne_zero

/-- The literal `0x46000000` is 2¹³ = 8192: exponent field 140 = 127 + 13, significand 1. -/
theorem n8192_eq : n8192 = ((8192 : ℝ) : EReal) := by
  show Ideal.ofBits .f32 0x46000000#32 = _
  simp [Ideal.ofBits, Ideal.ieee, -EReal.coe_mul]; norm_num

theorem n8192_ne_zero : n8192 ≠ 0 := by
  rw [n8192_eq]
  exact (EReal.coe_pos.mpr (by norm_num)).ne'

variable (X : S8192x64.Idx → EReal) (par : S64.Idx → EReal)

/-- Every entry of K is at least zero: one on the diagonal, an exponential off it. -/
theorem kmat_nonneg (p q : Fin 8192) : 0 ≤ kmat X par p q := by
  unfold kmat
  split
  · rw [show one = 1 from Ideal.ofBits_one_f32]; exact zero_le_one
  · exact exp_nonneg _

/-- The denominator sum is at least one: all its terms are squares of entries that are not negative, and the term
at `p = q = 0` is `1 * 1`. -/
theorem one_le_den : 1 ≤ den X par := by
  have hnn : ∀ p q : Fin 8192, 0 ≤ kmat X par p q * kmat X par p q :=
    fun p q => mul_nonneg (kmat_nonneg X par p q) (kmat_nonneg X par p q)
  have h0 : kmat X par 0 0 = 1 := by
    unfold kmat; rw [if_pos rfl]; exact Ideal.ofBits_one_f32
  have h00 : kmat X par 0 0 * kmat X par 0 0 = 1 := by rw [h0, one_mul]
  calc (1 : EReal) = kmat X par 0 0 * kmat X par 0 0 := h00.symm
    _ ≤ ∑ q : Fin 8192, kmat X par 0 q * kmat X par 0 q :=
        Finset.single_le_sum (f := fun q => kmat X par 0 q * kmat X par 0 q)
          (fun q _ => hnn 0 q) (Finset.mem_univ 0)
    _ ≤ ∑ p : Fin 8192, ∑ q : Fin 8192, kmat X par p q * kmat X par p q :=
        Finset.single_le_sum (f := fun p => ∑ q : Fin 8192, kmat X par p q * kmat X par p q)
          (fun p _ => Finset.sum_nonneg (fun q _ => hnn p q)) (Finset.mem_univ 0)

/-- The scale of the loss, 8192 times the root of the denominator sum, is not zero. -/
theorem scale_ne_zero (X : S8192x64.Idx → EReal) (par : S64.Idx → EReal) :
    n8192 * Ideal.sqrt (den X par) ≠ 0 :=
  mul_ne_zero n8192_ne_zero
    (sqrt_ne_zero_of_pos (lt_of_lt_of_le zero_lt_one (one_le_den X par)))

end Cert.Spec

end
-- ==== Proof.KernelValue.lean ====
/-
  The kernel's result is the specification's loss.

  At point t the tile of K is the specification's K at the tile's global rows and columns, so the numerator cell gains
  the sum over the tile of K_pq t_p t_q and the denominator cell the sum of K_pq².  After the last point the cells hold
  the sums over all 64 tiles, from zero; the 64 tiles of 1024 × 1024 pairs are all 8192 × 8192 pairs, each once, and
  addition of extended reals is commutative and associative, so the totals are the specification's two sums and the
  result cell its loss.
-/
import proofs.«130531_j39487929319478_1_alg».proof.Proof.IdealResult
import proofs.«130531_j39487929319478_1_alg».proof.Proof.Blocks
import proofs.«130531_j39487929319478_1_alg».proof.Proof.TileK
import proofs.«130531_j39487929319478_1_alg».proof.Proof.TileSums
import proofs.«130531_j39487929319478_1_alg».proof.Proof.Diag
import proofs.«130531_j39487929319478_1_alg».proof.Proof.SpecLaws

set_option maxRecDepth 16384

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ) (c : Dev nD)

/-- The three arguments on core `c`. -/
abbrev argX : Cert.Spec.S8192x64.Idx → EReal := m ((c : Thread nD τ).loc main_arg0)
abbrev argT : Cert.Spec.S8192.Idx → EReal := m ((c : Thread nD τ).loc main_arg1)
abbrev argP : Cert.Spec.S64.Idx → EReal := m ((c : Thread nD τ).loc main_arg2)

/-- The five staged arrays are the specification's scaled rows, squared norms and targets. -/
structure Entry : Prop where
  h4 : ∀ (p : Fin 8192) (k : Fin 64), V m c main_v4 (ix2 p k) = Cert.Spec.xs (argX m c) (argP m c) p k
  h7 : ∀ p : Fin 8192, V m c main_v7 (ix2 p (0 : Fin 1)) = Cert.Spec.sq (argX m c) (argP m c) p
  h8 : ∀ q : Fin 8192, V m c main_v8 (ix2 (0 : Fin 1) q) = Cert.Spec.sq (argX m c) (argP m c) q
  h9 : ∀ p : Fin 8192, V m c main_v9 (ix2 p (0 : Fin 1)) = argT m c (ix1 p)
  h10 : ∀ q : Fin 8192, V m c main_v10 (ix2 (0 : Fin 1) q) = argT m c (ix1 q)

variable {m c}

/-- The tile of K at point `t` is the specification's K at the tile's global rows and columns. -/
theorem tile_global (E : Entry m c) (t : Fin cfg0.N) (r q : Fin 1024) :
    tileK (F := Ideal) (grid0.coords t) (iblk m c 0 t) (iblk m c 1 t) (iblk m c 2 t) (iblk m c 3 t) (ix2 r q)
      = Cert.Spec.kmat (argX m c) (argP m c) (gRow t r) (gCol t q) := by
  refine (Cert.KernelIdeal.Tile.tileK_apply _ _ _ _ _ r q).trans ?_
  rw [Cert.KernelIdeal.Tile.select_diag (grid0.coords t 0) (grid0.coords t 1) r q]
  have hc := coords_eq t
  unfold Cert.Spec.kmat
  by_cases h : gRow t r = gCol t q
  · have hv : 1024 * (grid0.coords t 0).val + r.val = 1024 * (grid0.coords t 1).val + q.val := by
      have := congrArg Fin.val h; rw [hc.1, hc.2]; exact this
    rw [if_pos h, if_pos hv]
  · have hv : ¬ 1024 * (grid0.coords t 0).val + r.val = 1024 * (grid0.coords t 1).val + q.val := fun e =>
      h (Fin.ext (by show 1024 * (t.val / 8) + r.val = 1024 * (t.val % 8) + q.val; rw [← hc.1, ← hc.2]; exact e))
    rw [if_neg h, if_neg hv]
    unfold Cert.Spec.kOff Cert.Spec.gram
    rw [blk2_apply, blk3_apply, E.h7, E.h8]
    simp only [blk0_apply, blk1_apply, E.h4]

/-- One tile's contribution to the numerator and to the denominator. -/
def tNum (m : (ℓ : Loc nD τ sig) → Buf (Elt Ideal) ℓ) (c : Dev nD) (t : Fin cfg0.N) : EReal :=
  ∑ r : Fin 1024, ∑ q : Fin 1024, Cert.Spec.kmat (argX m c) (argP m c) (gRow t r) (gCol t q) * (argT m c (ix1 (gRow t r)) * argT m c (ix1 (gCol t q)))
def tDen (m : (ℓ : Loc nD τ sig) → Buf (Elt Ideal) ℓ) (c : Dev nD) (t : Fin cfg0.N) : EReal :=
  ∑ r : Fin 1024, ∑ q : Fin 1024, Cert.Spec.kmat (argX m c) (argP m c) (gRow t r) (gCol t q) * Cert.Spec.kmat (argX m c) (argP m c) (gRow t r) (gCol t q)

theorem step_num (E : Entry m c) (t : Fin cfg0.N) (s : Vec Ideal S1x1 .f32) :
    k0_pay1 (F := Ideal) (tileK (grid0.coords t) (iblk m c 0 t) (iblk m c 1 t) (iblk m c 2 t) (iblk m c 3 t)) (iblk m c 4 t) (iblk m c 5 t) s (ix2 (0 : Fin 1) (0 : Fin 1))
      = s (ix2 (0 : Fin 1) (0 : Fin 1)) + tNum m c t := by
  refine (Cert.KernelIdeal.Tile.pay1_apply _ _ _ _).trans (congrArg (s (ix2 (0 : Fin 1) (0 : Fin 1)) + ·) ?_)
  refine Finset.sum_congr rfl fun r _ => Finset.sum_congr rfl fun q _ => ?_
  rw [tile_global E, blk4_apply, blk5_apply, E.h9, E.h10]

theorem step_den (E : Entry m c) (t : Fin cfg0.N) (s : Vec Ideal S1x1 .f32) :
    k0_pay2 (F := Ideal) (tileK (grid0.coords t) (iblk m c 0 t) (iblk m c 1 t) (iblk m c 2 t) (iblk m c 3 t)) s (ix2 (0 : Fin 1) (0 : Fin 1))
      = s (ix2 (0 : Fin 1) (0 : Fin 1)) + tDen m c t := by
  refine (Cert.KernelIdeal.Tile.pay2_apply _ _).trans (congrArg (s (ix2 (0 : Fin 1) (0 : Fin 1)) + ·) ?_)
  refine Finset.sum_congr rfl fun r _ => Finset.sum_congr rfl fun q _ => ?_
  rw [tile_global E]

/-- A tile's contribution by its number alone (zero past the grid). -/
def tNumN (m : (ℓ : Loc nD τ sig) → Buf (Elt Ideal) ℓ) (c : Dev nD) (t : ℕ) : EReal := if h : t < cfg0.N then tNum m c ⟨t, h⟩ else 0
def tDenN (m : (ℓ : Loc nD τ sig) → Buf (Elt Ideal) ℓ) (c : Dev nD) (t : ℕ) : EReal := if h : t < cfg0.N then tDen m c ⟨t, h⟩ else 0

/-- The totals after point `n` are the sums of the tiles' contributions so far, from zero. -/
theorem totals_sums (E : Entry m c) : ∀ (n : ℕ) (h : n < cfg0.N),
    (totals m c n h).1 (ix2 (0 : Fin 1) (0 : Fin 1)) = Cert.Spec.zero + ∑ t ∈ Finset.range (n + 1), tNumN m c t
    ∧ (totals m c n h).2 (ix2 (0 : Fin 1) (0 : Fin 1)) = Cert.Spec.zero + ∑ t ∈ Finset.range (n + 1), tDenN m c t
  | 0, h => by
    constructor
    · show k0_pay1 (F := Ideal) _ _ _ (k0_pay4 (F := Ideal)) (ix2 (0 : Fin 1) (0 : Fin 1)) = _
      rw [step_num E ⟨0, h⟩, Cert.KernelIdeal.Tile.pay4_apply, Finset.sum_range_one]
      unfold tNumN; rw [dif_pos h]
    · show k0_pay2 (F := Ideal) _ (k0_pay5 (F := Ideal)) (ix2 (0 : Fin 1) (0 : Fin 1)) = _
      rw [step_den E ⟨0, h⟩, Cert.KernelIdeal.Tile.pay5_apply, Finset.sum_range_one]
      unfold tDenN; rw [dif_pos h]
  | n + 1, h => by
    have ih := totals_sums E n (Nat.lt_of_succ_lt h)
    constructor
    · show k0_pay1 (F := Ideal) _ _ _ (totals m c n _).1 (ix2 (0 : Fin 1) (0 : Fin 1)) = _
      rw [step_num E ⟨n + 1, h⟩, ih.1, Finset.sum_range_succ _ (n + 1), add_assoc]
      unfold tNumN; rw [dif_pos h]
    · show k0_pay2 (F := Ideal) _ (totals m c n _).2 (ix2 (0 : Fin 1) (0 : Fin 1)) = _
      rw [step_den E ⟨n + 1, h⟩, ih.2, Finset.sum_range_succ _ (n + 1), add_assoc]
      unfold tDenN; rw [dif_pos h]

/-- The 64 tiles are all pairs, each once. -/
theorem all_tiles (g : Fin 8192 → Fin 8192 → EReal) (f : ℕ → EReal)
    (hf : ∀ (t : Fin cfg0.N), f t.val = ∑ r : Fin 1024, ∑ q : Fin 1024, g (gRow t r) (gCol t q)) (hf' : ∀ t, ¬ t < cfg0.N → f t = 0) :
    ∑ t ∈ Finset.range 64, f t = ∑ p : Fin 8192, ∑ q : Fin 8192, g p q := by
  have hN : cfg0.N = 64 := N_0
  let G : ℕ → ℕ → EReal := fun p q => if h : p < 8192 ∧ q < 8192 then g ⟨p, h.1⟩ ⟨q, h.2⟩ else 0
  have e1 : ∑ p : Fin 8192, ∑ q : Fin 8192, g p q = ∑ p : Fin 8192, ∑ q : Fin 8192, G p.val q.val :=
    Finset.sum_congr rfl fun p _ => Finset.sum_congr rfl fun q _ => by
      show g p q = if h : p.val < 8192 ∧ q.val < 8192 then g ⟨p.val, h.1⟩ ⟨q.val, h.2⟩ else 0
      rw [dif_pos ⟨p.isLt, q.isLt⟩]
  rw [e1, ← Cert.Spec.sum_tiles G, Finset.sum_range]
  refine Finset.sum_congr rfl fun t _ => ?_
  have ht : t.val < cfg0.N := by rw [hN]; exact t.isLt
  rw [show f t.val = f (⟨t.val, ht⟩ : Fin cfg0.N).val from rfl, hf ⟨t.val, ht⟩]
  refine Finset.sum_congr rfl fun r _ => Finset.sum_congr rfl fun q _ => ?_
  show g (gRow ⟨t.val, ht⟩ r) (gCol ⟨t.val, ht⟩ q) = if h : 1024 * (t.val / 8) + r.val < 8192 ∧ 1024 * (t.val % 8) + q.val < 8192 then g ⟨_, h.1⟩ ⟨_, h.2⟩ else 0
  rw [dif_pos ⟨(gRow ⟨t.val, ht⟩ r).isLt, (gCol ⟨t.val, ht⟩ q).isLt⟩]
  rfl

/-- The result cell holds the specification's loss. -/
theorem result_loss (E : Entry m c) :
    resultCell m c (ix2 (0 : Fin 1) (0 : Fin 1)) = Cert.Spec.loss (argX m c) (argT m c) (argP m c) := by
  have hs := totals_sums E 63 lt63
  have hn : ∑ t ∈ Finset.range 64, tNumN m c t = Cert.Spec.num (argX m c) (argT m c) (argP m c) :=
    all_tiles (fun p q => Cert.Spec.kmat (argX m c) (argP m c) p q * (argT m c (ix1 p) * argT m c (ix1 q))) (tNumN m c)
      (fun t => by unfold tNumN; rw [dif_pos t.isLt]; rfl) (fun t ht => by unfold tNumN; rw [dif_neg ht])
  have hd : ∑ t ∈ Finset.range 64, tDenN m c t = Cert.Spec.den (argX m c) (argP m c) :=
    all_tiles (fun p q => Cert.Spec.kmat (argX m c) (argP m c) p q * Cert.Spec.kmat (argX m c) (argP m c) p q) (tDenN m c)
      (fun t => by unfold tDenN; rw [dif_pos t.isLt]; rfl) (fun t ht => by unfold tDenN; rw [dif_neg ht])
  show k0_pay3 (F := Ideal) (totals m c 63 lt63).1 (totals m c 63 lt63).2 (ix2 (0 : Fin 1) (0 : Fin 1)) = _
  have hz : ∀ x : EReal, Cert.Spec.zero + x = x := fun x => by
    rw [show (Cert.Spec.zero : EReal) = 0 from Ideal.ofBits_zero_f32, zero_add]
  rw [Cert.KernelIdeal.Tile.pay3_apply, hs.1, hs.2, hn, hd, hz, hz]
  rfl

end Cert.KernelIdeal.Gen

end
-- ==== Proof.EntryArrays.lean ====
/-
  The arrays the host operations before the launch hand to the kernel's windows, read at an index, in the terms of
  the specification: the scaled rows (the data times the square roots of the parameters), their squared norms as a
  column and as a row, and the targets as a column and as a row.
-/
import proofs.«130531_j39487929319478_1_alg».proof.Proof.IdealPoints
import proofs.«130531_j39487929319478_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Entry

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The three arguments of the program on core `c`: the data matrix, the targets, the parameters. -/
abbrev X : S8192x64.Idx → EReal := m ((c : Thread nD τ).loc main_arg0)
abbrev tg : S8192.Idx → EReal := m ((c : Thread nD τ).loc main_arg1)
abbrev par : S64.Idx → EReal := m ((c : Thread nD τ).loc main_arg2)

/-- The rows of the data scaled by the square roots of the parameters, as the host computes them: the data times
the roots, the roots broadcast along the rows. -/
def scaled : (⟨S8192x64, .f32⟩ : BufTy).Contents (Elt Ideal) :=
  mulf (F := Ideal) (s := S8192x64) (φ := .f32) (X m c)
    (broadcastInDim S8192x64 ![0, 1] bcast_S1x64_S8192x64_0_1
      (broadcastInDim S1x64 ![1] bcast_S64_S1x64_1
        (Host.sqrt (F := Ideal) (s := S64) (φ := .f32) (par m c))))

/-- Entry `(p, k)` of the scaled rows is `X p k * √(par k)`: both broadcasts read the root at feature `k`. -/
theorem scaled_apply (p : Fin 8192) (k : Fin 64) :
    scaled m c (ix2 p k) = Cert.Spec.xs (X m c) (par m c) p k := by
  unfold scaled Cert.Spec.xs
  rw [mulf_apply]
  refine congrArg (X m c (ix2 p k) * ·) ?_
  rw [broadcastInDim_apply _ bcast_S1x64_S8192x64_0_1 _ (ix2 p k) (ix2 (0 : Fin 1) k) (fun a => match a with
      | ⟨0, _⟩ => by show 0 = if (1 : Nat) = 1 then 0 else p.val; rw [if_pos rfl]
      | ⟨1, _⟩ => by show k.val = if (64 : Nat) = 1 then 0 else k.val; rw [if_neg (by decide)])]
  rw [broadcastInDim_apply _ bcast_S64_S1x64_1 _ (ix2 (0 : Fin 1) k) (ix1 k) (fun a => match a with
      | ⟨0, _⟩ => by show k.val = if (64 : Nat) = 1 then 0 else k.val; rw [if_neg (by decide)])]
  rfl

/-- The scaled rows converted to the narrow format (the identity on the extended reals): entry `(p, k)` is
`X p k * √(par k)`. -/
theorem v4_apply (p : Fin 8192) (k : Fin 64) :
    V m c main_v4 (ix2 p k) = Cert.Spec.xs (X m c) (par m c) p k := by
  have e : (V m c main_v4 : S8192x64.Idx → EReal)
      = truncf (F := Ideal) (s := S8192x64) (φ := .f32) .bf16 (scaled m c) bitsLt_bf16_f32 := by
    show StableHlo.after hostOps0 (fun b => m (c, b)) (Proc.devRef .tc main_v4) = _
    after_results
    rfl
  rw [e, truncf_apply]
  exact scaled_apply m c p k

/-- The squared norms of the scaled rows as a column, as the host computes them: the sums along each row of the
squares, from the zero constant, broadcast to one column. -/
def norms : (⟨S8192x1, .f32⟩ : BufTy).Contents (Elt Ideal) :=
  broadcastInDim S8192x1 ![0] bcast_S8192_S8192x1_0
    (Host.reduceAdd (F := Ideal) (s := S8192x64) (φ := .f32)
      (mulf (F := Ideal) (s := S8192x64) (φ := .f32) (scaled m c) (scaled m c))
      (constant (F := Ideal) S_ .f32 0x00000000#32) reducesTo_S8192x64_S8192_d1 h_S_)

/-- Entry `(p, 0)` of the column of norms is zero plus the sum over the features of the squares of scaled row `p`. -/
theorem norms_apply (p : Fin 8192) : norms m c (ix2 p (0 : Fin 1)) = Cert.Spec.sq (X m c) (par m c) p := by
  have hR : S8192x64.Reduces [1] S8192 := by decide
  unfold norms
  rw [broadcastInDim_apply _ bcast_S8192_S8192x1_0 _ (ix2 p (0 : Fin 1)) (ix1 p) (fun a => match a with
      | ⟨0, _⟩ => by show p.val = if (8192 : Nat) = 1 then 0 else p.val; rw [if_neg (by decide)])]
  simp only [Host.reduceAdd, Ideal.hostReduceAdd_def]
  rw [Ideal.hostReduceAdd_single reducesTo_S8192x64_S8192_d1 hR]
  unfold Cert.Spec.sq
  refine congrArg₂ (· + ·) rfl (Finset.sum_congr rfl fun (k : Fin 64) _ => ?_)
  have hl : hR.lift (ix1 p) k = ix2 p k :=
    funext fun a => Fin.ext (by match a with | ⟨0, _⟩ => rfl | ⟨1, _⟩ => rfl)
  show scaled m c (hR.lift (ix1 p) k) * scaled m c (hR.lift (ix1 p) k) = _
  rw [hl, scaled_apply]

theorem v7_apply (p : Fin 8192) : V m c main_v7 (ix2 p (0 : Fin 1)) = Cert.Spec.sq (X m c) (par m c) p := by
  have e : (V m c main_v7 : S8192x1.Idx → EReal) = norms m c := by
    show StableHlo.after hostOps0 (fun b => m (c, b)) (Proc.devRef .tc main_v7) = _
    after_results
    rfl
  rw [e]
  exact norms_apply m c p

/-- The column of norms transposed to a row: entry `(0, q)` is entry `(q, 0)` of the column. -/
theorem v8_apply (q : Fin 8192) : V m c main_v8 (ix2 (0 : Fin 1) q) = Cert.Spec.sq (X m c) (par m c) q := by
  have e : (V m c main_v8 : S1x8192.Idx → EReal)
      = transpose S1x8192 [1, 0] (norms m c) transposes_S8192x1_S1x8192_1_0 := by
    show StableHlo.after hostOps0 (fun b => m (c, b)) (Proc.devRef .tc main_v8) = _
    after_results
    rfl
  rw [e]
  exact (transpose_ix2_apply (a := 8192) (b := 1) (norms m c) transposes_S8192x1_S1x8192_1_0 (0 : Fin 1) q).trans
    (norms_apply m c q)

/-- The targets reshaped to a column: entry `(p, 0)` is target `p` (row-major position `p * 1 + 0 = p`). -/
theorem v9_apply (p : Fin 8192) : V m c main_v9 (ix2 p (0 : Fin 1)) = tg m c (ix1 p) := by
  have e : (V m c main_v9 : S8192x1.Idx → EReal) = shapeCast S8192x1 (tg m c) shapeCasts_S8192_S8192x1 := by
    show StableHlo.after hostOps0 (fun b => m (c, b)) (Proc.devRef .tc main_v9) = _
    after_results
    rfl
  rw [e]
  exact shapeCast_apply _ _ _ _ (by
    rw [Shape.rowMajor_val_two, Shape.rowMajor_val_one]
    show p.val = p.val * 1 + 0
    omega)

/-- The targets reshaped to a row: entry `(0, q)` is target `q` (row-major position `0 * 8192 + q = q`). -/
theorem v10_apply (q : Fin 8192) : V m c main_v10 (ix2 (0 : Fin 1) q) = tg m c (ix1 q) := by
  have e : (V m c main_v10 : S1x8192.Idx → EReal) = shapeCast S1x8192 (tg m c) shapeCasts_S8192_S1x8192 := by
    show StableHlo.after hostOps0 (fun b => m (c, b)) (Proc.devRef .tc main_v10) = _
    after_results
    rfl
  rw [e]
  exact shapeCast_apply _ _ _ _ (by
    rw [Shape.rowMajor_val_two, Shape.rowMajor_val_one]
    show q.val = 0 * 8192 + q.val
    omega)

end Cert.KernelIdeal.Entry

end
-- ==== Proof.RefChain.lean ====
/-
  The reference program's result, read as the specification.

  Each value of the reference program is read at an index and traced back to the three arguments: the scaled rows,
  their squared norms (sums from zero), the inner products of scaled rows, the matrix K off the diagonal, K itself
  (given that the diagonal is overwritten by one), the two full sums over both axes, and the final quotient.
-/
import proofs.«130531_j39487929319478_1_alg».proof.Proof.Gen.ReferenceIdeal.Read
import proofs.«130531_j39487929319478_1_alg».proof.Proof.Spec

noncomputable section

namespace Cert.RefChain

open Cert.ReferenceIdeal Cert.ReferenceIdeal.Read Idealize.ShloMosaic Idealize.ShloMosaic.ValueIdx

section Chain

variable (x0 : (⟨S8192x64, .f32⟩ : BufTy).Contents (Elt Ideal)) (x1 : (⟨S8192, .f32⟩ : BufTy).Contents (Elt Ideal))
  (x2 : (⟨S64, .f32⟩ : BufTy).Contents (Elt Ideal))

/-- The scaled row p at feature k: X[p,k] · √(params[k]). -/
theorem v3_at (p : Fin 8192) (k : Fin 64) :
    val_main_v3 (F := Ideal) x0 x2 (ix2 p k) = Cert.Spec.xs x0 x2 p k := by
  rw [val_main_v3_apply, val_main_v2_apply, val_main_v1_apply, val_main_v0_apply]
  have hi : idx_main_v1 (idx_main_v2 (ix2 p k)) = ix1 k := by
    funext a; match a with | ⟨0, _⟩ => rfl
  rw [hi]
  rfl

/-- The squared norm of scaled row p: the sum from zero of the squares of its 64 entries. -/
theorem v5_at (p : Fin 8192) :
    val_main_v5 (F := Ideal) x0 x2 (ix1 p) = Cert.Spec.sq x0 x2 p := by
  rw [val_main_v5_apply, val_main_cst_apply]
  unfold Cert.Spec.sq
  refine congrArg (_ + ·) (Finset.sum_congr rfl fun k _ => ?_)
  have hi : idx_main_v5 (ix1 p) k = ix2 p k := by
    funext a; match a with | ⟨0, _⟩ => rfl | ⟨1, _⟩ => rfl
  rw [hi, val_main_v4_apply, v3_at]
  rfl

/-- The inner product of scaled rows p and q. -/
theorem v12_at (p q : Fin 8192) :
    val_main_v12 (F := Ideal) x0 x2 (ix2 p q) = Cert.Spec.gram x0 x2 p q := by
  rw [val_main_v12_apply]
  unfold Cert.Spec.gram
  refine Finset.sum_congr rfl fun k _ => ?_
  have hl : lidx_main_v12 (ix2 p q) k = ix2 p k := by
    funext a; match a with | ⟨0, _⟩ => rfl | ⟨1, _⟩ => rfl
  have hr : idx_main_v11 (ridx_main_v12 (ix2 p q) k) = ix2 q k := by
    funext a; match a with | ⟨0, _⟩ => rfl | ⟨1, _⟩ => rfl
  rw [hl, val_main_v11_apply, hr, v3_at, v3_at]

/-- Negation is the difference from the zero literal. -/
theorem neg_eq_zero_sub (a : EReal) : -a = Cert.Spec.zero - a := by
  show -a = Ideal.ofBits .f32 0x00000000#32 - a
  rw [Ideal.ofBits_zero_f32, zero_sub]

/-- The matrix K off the diagonal: exp(−max(s_p + s_q − 2·g_pq, 0)), the negation written as a difference from zero. -/
theorem v19_at (p q : Fin 8192) :
    val_main_v19 (F := Ideal) x0 x2 (ix2 p q) = Cert.Spec.kOff x0 x2 p q := by
  rw [val_main_v19_apply, val_main_v18_apply, val_main_v17_apply, val_main_v16_apply, val_main_cst_1_apply,
    val_main_v15_apply, val_main_v14_apply, val_main_v13_apply, val_main_cst_0_apply, v12_at,
    val_main_v10_apply, val_main_v9_apply, val_main_v7_apply, val_main_v8_apply, val_main_v6_apply]
  have h8 : idx_main_v6 (idx_main_v8 (ix2 p q)) = ix1 p := by
    funext a; match a with | ⟨0, _⟩ => rfl
  have h9 : idx_main_v7 (idx_main_v9 (ix2 p q)) = ix1 q := by
    funext a; match a with | ⟨0, _⟩ => rfl
  rw [h8, h9, v5_at, v5_at]
  unfold Cert.Spec.kOff
  exact congrArg Ideal.exp (neg_eq_zero_sub _)

/-- The matrix K: one on the diagonal (the hypothesis: the diagonal is overwritten by one), the exponential off it. -/
theorem v36_at (h36 : ∀ p q : Fin 8192, val_main_v36 (F := Ideal) x0 x2 (ix2 p q) = if p = q then Ideal.ofBits .f32 0x3F800000#32 else val_main_v19 (F := Ideal) x0 x2 (ix2 p q))
    (p q : Fin 8192) : val_main_v36 (F := Ideal) x0 x2 (ix2 p q) = Cert.Spec.kmat x0 x2 p q := by
  rw [h36, v19_at]
  rfl

/-- The outer product of the target with itself at (p, q). -/
theorem v41_at (p q : Fin 8192) :
    val_main_v41 (F := Ideal) x1 (ix2 p q) = x1 (ix1 p) * x1 (ix1 q) := by
  rw [val_main_v41_apply, val_main_v39_apply, val_main_v37_apply, val_main_v40_apply, val_main_v38_apply]
  have ha : idx_main_v37 (idx_main_v39 (ix2 p q)) = ix1 p := by
    funext a; match a with | ⟨0, _⟩ => rfl
  have hb : idx_main_v38 (idx_main_v40 (ix2 p q)) = ix1 q := by
    funext a; match a with | ⟨0, _⟩ => rfl
  rw [ha, hb]
  rfl

/-- The numerator: the sum from zero over both axes of K_pq · t_p · t_q is the double sum (0 + a = a). -/
theorem v43_at (h36 : ∀ p q : Fin 8192, val_main_v36 (F := Ideal) x0 x2 (ix2 p q) = if p = q then Ideal.ofBits .f32 0x3F800000#32 else val_main_v19 (F := Ideal) x0 x2 (ix2 p q))
    (i : S_.Idx) : val_main_v43 (F := Ideal) x0 x1 x2 i = Cert.Spec.num x0 x1 x2 := by
  rw [val_main_v43_apply, val_main_cst_6_apply, Ideal.ofBits_def, Ideal.ofBits_zero_f32, zero_add, sum_idx2]
  unfold Cert.Spec.num
  refine Finset.sum_congr rfl fun p _ => Finset.sum_congr rfl fun q _ => ?_
  rw [val_main_v42_apply, v36_at x0 x2 h36, v41_at]
  rfl

/-- The denominator's sum: the sum from zero over both axes of K_pq². -/
theorem v45_at (h36 : ∀ p q : Fin 8192, val_main_v36 (F := Ideal) x0 x2 (ix2 p q) = if p = q then Ideal.ofBits .f32 0x3F800000#32 else val_main_v19 (F := Ideal) x0 x2 (ix2 p q))
    (i : S_.Idx) : val_main_v45 (F := Ideal) x0 x2 i = Cert.Spec.den x0 x2 := by
  rw [val_main_v45_apply, val_main_cst_7_apply, Ideal.ofBits_def, Ideal.ofBits_zero_f32, zero_add, sum_idx2]
  unfold Cert.Spec.den
  refine Finset.sum_congr rfl fun p _ => Finset.sum_congr rfl fun q _ => ?_
  rw [val_main_v44_apply, v36_at x0 x2 h36]
  rfl

end Chain

/-- The reference's result is the negated quotient of the numerator by 8192 · √(denominator sum). -/
theorem ref_value (x0 : (⟨S8192x64, .f32⟩ : BufTy).Contents (Elt Ideal)) (x1 : (⟨S8192, .f32⟩ : BufTy).Contents (Elt Ideal)) (x2 : (⟨S64, .f32⟩ : BufTy).Contents (Elt Ideal))
    (h36 : ∀ p q : Fin 8192, val_main_v36 (F := Ideal) x0 x2 (ix2 p q) = if p = q then Ideal.ofBits .f32 0x3F800000#32 else val_main_v19 (F := Ideal) x0 x2 (ix2 p q)) :
    val_main_v49 (F := Ideal) x0 x1 x2 ix0 = -(Ideal.div (Cert.Spec.num x0 x1 x2) (Cert.Spec.n8192 * Ideal.sqrt (Cert.Spec.den x0 x2))) := by
  rw [val_main_v49_apply, val_main_v48_apply, val_main_v47_apply, val_main_v46_apply, val_main_cst_8_apply,
    v43_at x0 x1 x2 h36, v45_at x0 x2 h36]
  rfl

end Cert.RefChain

end
-- ==== Proof.RefDiag.lean ====
import proofs.«130531_j39487929319478_1_alg».proof.Proof.Gen.ReferenceIdeal.Read

noncomputable section

namespace Cert.RefDiag

open Cert.ReferenceIdeal Cert.ReferenceIdeal.Read Idealize.ShloMosaic Idealize.ShloMosaic.ValueIdx

/-! ## A fold of point updates, read at an index

A fold over a list `l` of steps, each of which either leaves the function alone (`I n = none`) or
replaces its value at the one point `i` (`I n = some i`) by the fixed value `v`, gives at a point `i'`
the value `v` when some member of the list names `i'`, and the starting value when none does. -/

open Classical in
theorem foldl_pointSet_apply {ι κ α : Type} (I : κ → Option ι) (v : α)
    (step : (ι → α) → κ → (ι → α))
    (hsome : ∀ r n i, I n = some i → step r n i = v ∧ ∀ i', i' ≠ i → step r n i' = r i')
    (hnone : ∀ r n, I n = none → step r n = r)
    (l : List κ) (x : ι → α) (i' : ι) :
    l.foldl step x i' = if ∃ n ∈ l, I n = some i' then v else x i' := by
  induction l generalizing x with
  | nil => simp
  | cons a l ih =>
    rw [List.foldl_cons, ih]
    cases h : I a with
    | none =>
      rw [hnone _ _ h]
      have hiff : (∃ n ∈ a :: l, I n = some i') ↔ ∃ n ∈ l, I n = some i' := by
        constructor
        · rintro ⟨n, hn, e⟩
          rcases List.mem_cons.1 hn with rfl | hn
          · rw [h] at e; cases e
          · exact ⟨n, hn, e⟩
        · rintro ⟨n, hn, e⟩; exact ⟨n, List.mem_cons_of_mem _ hn, e⟩
      by_cases hl : ∃ n ∈ l, I n = some i'
      · rw [if_pos hl, if_pos (hiff.2 hl)]
      · rw [if_neg hl, if_neg (fun h' => hl (hiff.1 h'))]
    | some i =>
      obtain ⟨hv, hr⟩ := hsome x a i h
      by_cases hl : ∃ n ∈ l, I n = some i'
      · have hal : ∃ n ∈ a :: l, I n = some i' := by
          obtain ⟨n, hn, e⟩ := hl; exact ⟨n, List.mem_cons_of_mem _ hn, e⟩
        rw [if_pos hl, if_pos hal]
      · rw [if_neg hl]
        by_cases e : i' = i
        · subst e
          rw [hv, if_pos ⟨a, List.mem_cons_self, h⟩]
        · rw [hr i' e, if_neg]
          rintro ⟨n, hn, e'⟩
          rcases List.mem_cons.1 hn with rfl | hn
          · rw [h] at e'; exact e (Option.some.inj e').symm
          · exact hl ⟨n, hn, e'⟩

/-! ## The scatter indices: both columns hold the row number -/

/-- The scatter's dimension record: no window axes, both operand axes inserted, the index vector along axis 1 of the
    indices, its two components going to operand axes 0 and 1. -/
abbrev D := scatter_S8192x8192_S8192x2_S8192_n_01_01_1

variable {F : FTy → Type} [FloatOps F]

/-- A row number below 8192, written as a 32-bit word, reads back signed as itself. -/
theorem toInt_ofNat_lt (m : Nat) (h : m < 8192) : (BitVec.ofNat 32 m).toInt = (m : Int) := by
  have hn : (BitVec.ofNat 32 m).toNat = m := by
    rw [BitVec.toNat_ofNat]; omega
  rw [BitVec.toInt_eq_toNat_of_lt (by rw [hn]; omega), hn]

/-- Such a word is not negative. -/
theorem slt_zero_ofNat_lt (m : Nat) (h : m < 8192) : IntOp.cmpi .slt (BitVec.ofNat 32 m) 0#32 = 0#1 := by
  unfold IntOp.cmpi
  show BitVec.ofBool ((BitVec.ofNat 32 m).slt 0#32) = 0#1
  have h0 : (BitVec.ofNat 32 m).slt 0#32 = false := by
    rw [BitVec.slt_eq_decide, toInt_ofNat_lt m h]
    simp only [BitVec.toInt_zero, decide_eq_false_iff_not]
    omega
  rw [h0]; rfl

/-- Index normalisation (`i < 0 ? i + 8192 : i`) leaves a row number alone: first column. -/
theorem val_main_v26_word (i : S8192.Idx) : val_main_v26 (F := F) i = BitVec.ofNat 32 (i 0).val := by
  have hlt : (i 0).val < 8192 := (i 0).isLt
  rw [val_main_v26_apply, val_main_v23_apply, val_main_v20_apply, val_main_v22_apply, val_main_c_apply,
    slt_zero_ofNat_lt _ hlt]
  unfold Scalar.select
  rw [if_neg (by decide)]

/-- The same for the second column. -/
theorem val_main_v31_word (i : S8192.Idx) : val_main_v31 (F := F) i = BitVec.ofNat 32 (i 0).val := by
  have hlt : (i 0).val < 8192 := (i 0).isLt
  rw [val_main_v31_apply, val_main_v28_apply, val_main_v21_apply, val_main_v27_apply, val_main_c_3_apply,
    slt_zero_ofNat_lt _ hlt]
  unfold Scalar.select
  rw [if_neg (by decide)]

/-- The scatter indices, the two columns joined: at row `k 0`, either column, the row number. -/
theorem val_main_v34_word (k : S8192x2.Idx) : val_main_v34 (F := F) k = BitVec.ofNat 32 (k 0).val := by
  unfold val_main_v34
  have h1 : (k 1).val < 2 := (k 1).isLt
  by_cases hc : (k 1).val = 0
  · refine (concatenate_pair_apply_left (1 : Fin S8192x2.rank) (val_main_v32 (F := F)) (val_main_v33 (F := F))
      _ k rfl (ix2 (k 0) ⟨0, Nat.one_pos⟩) (fun b => ?_)).trans ?_
    · match b with
      | ⟨0, _⟩ => rfl
      | ⟨1, _⟩ => exact hc.symm
    · rw [val_main_v32_apply, val_main_v26_word]
  · refine (concatenate_pair_apply_right (1 : Fin S8192x2.rank) (val_main_v32 (F := F)) (val_main_v33 (F := F))
      _ k rfl rfl (ix2 (k 0) ⟨0, Nat.one_pos⟩) (fun b hb => ?_) ?_).trans ?_
    · match b with
      | ⟨0, _⟩ => rfl
      | ⟨1, _⟩ => exact absurd rfl hb
    · show 0 + 1 = (k 1).val
      omega
    · rw [val_main_v33_apply, val_main_v31_word]

/-! ## Where update `j` lands: the diagonal point of its row -/

/-- The entry of the scatter indices that update `j` reads for either component of its start index lies in row `j 0`. -/
theorem siIdx_row (j : S8192.Idx) (c : Fin D.scatterDimsToOperandDims.length) :
    ((D.siIdx j c) (0 : Fin S8192x2.rank)).val = (j 0).val := by
  unfold ScatterDims.siIdx
  rw [dif_neg (by decide)]
  unfold ScatterDims.siCoord
  exact congrArg (fun a => (j a).val) (Subsingleton.elim (α := Fin 1) _ _)

/-- The start of update `j`'s (one-point) window, on either operand axis: the row number. -/
theorem start_eq (j : S8192.Idx) (a : Fin S8192x8192.rank) :
    D.start j (val_main_v34 (F := F)) a = ((j 0).val : Int) := by
  have ha : a ∈ D.scatterDimsToOperandDims := by
    match a with
    | ⟨0, _⟩ => exact (by decide : (0 : Fin S8192x8192.rank) ∈ D.scatterDimsToOperandDims)
    | ⟨1, _⟩ => exact (by decide : (1 : Fin S8192x8192.rank) ∈ D.scatterDimsToOperandDims)
  unfold ScatterDims.start
  rw [dif_pos ha, val_main_v34_word, siIdx_row]
  exact toInt_ofNat_lt _ (j 0).isLt

/-- Both operand axes are inserted ones: the window coordinate is zero. -/
theorem window_eq (j : S8192.Idx) (a : Fin S8192x8192.rank) : D.window j a = 0 := by
  have ha : a ∉ D.sKept := by
    match a with
    | ⟨0, _⟩ => exact (by decide : (0 : Fin S8192x8192.rank) ∉ D.sKept)
    | ⟨1, _⟩ => exact (by decide : (1 : Fin S8192x8192.rank) ∉ D.sKept)
  unfold ScatterDims.window
  rw [dif_neg ha]

/-- Update `j` lands on the diagonal, at `(j 0, j 0)`, inside the operand. -/
theorem resultIdx_diag (j : S8192.Idx) :
    D.resultIdx? j (val_main_v34 (F := F)) = some (ix2 (j 0) (j 0) : S8192x8192.Idx) := by
  have hsum : ∀ a, D.start j (val_main_v34 (F := F)) a + ((D.window j a : Nat) : Int) = ((j 0).val : Int) := by
    intro a; rw [start_eq, window_eq]; simp
  have hlt : (j 0).val < 8192 := (j 0).isLt
  have hsz : ∀ a : Fin S8192x8192.rank, S8192x8192.size a = 8192 := by
    intro a; match a with | ⟨0, _⟩ => rfl | ⟨1, _⟩ => rfl
  unfold ScatterDims.resultIdx?
  rw [dif_pos (fun a => by rw [hsum a, hsz a]; omega)]
  refine congrArg some (funext fun a => Fin.ext ?_)
  show (D.start j (val_main_v34 (F := F)) a + ((D.window j a : Nat) : Int)).toNat = _
  rw [hsum a]
  match a with
  | ⟨0, _⟩ => simp
  | ⟨1, _⟩ => simp

/-! ## The scatter read at an index

Update `n` (in row-major order over the 8192 updates) writes the constant 1.0 at the diagonal point of its row; so
the fold leaves 1.0 at every diagonal point — row `p`'s update is in the list — and the operand elsewhere. -/

theorem val_main_v36_apply (x0 : (⟨S8192x64, .f32⟩ : BufTy).Contents (Elt Ideal)) (x2 : (⟨S64, .f32⟩ : BufTy).Contents (Elt Ideal)) (p q : Fin 8192) :
    val_main_v36 (F := Ideal) x0 x2 (ix2 p q) = if p = q then Ideal.ofBits .f32 0x3F800000#32 else val_main_v19 (F := Ideal) x0 x2 (ix2 p q) := by
  unfold val_main_v36 Host.scatter
  refine (foldl_pointSet_apply
    (fun n => D.resultIdx? (S8192.rowMajor.symm n) (val_main_v34 (F := Ideal)))
    (Ideal.ofBits .f32 0x3F800000#32) _ (fun r n i h => ?_) (fun r n h => ?_) _ _ _).trans ?_
  · have h' : D.resultIdx? (S8192.rowMajor.symm n) (val_main_v34 (F := Ideal)) = some i := h
    simp only [h']
    refine ⟨?_, fun i' hne => if_neg hne⟩
    rw [if_pos trivial]
    exact (val_main_v35_apply (F := Ideal) _).trans (val_main_cst_5_apply (F := Ideal) _)
  · have h' : D.resultIdx? (S8192.rowMajor.symm n) (val_main_v34 (F := Ideal)) = none := h
    simp only [h']
  · by_cases hpq : p = q
    · subst hpq
      rw [if_pos rfl, if_pos]
      refine ⟨S8192.rowMajor (ix1 p), List.mem_finRange _, ?_⟩
      show D.resultIdx? (S8192.rowMajor.symm (S8192.rowMajor (ix1 p))) (val_main_v34 (F := Ideal)) = _
      rw [Equiv.symm_apply_apply, resultIdx_diag]
    · rw [if_neg hpq, if_neg]
      rintro ⟨n, -, e⟩
      have e' : D.resultIdx? (S8192.rowMajor.symm n) (val_main_v34 (F := Ideal)) = some (ix2 p q) := e
      rw [resultIdx_diag] at e'
      have e2 := Option.some.inj e'
      have a0 : ((S8192.rowMajor.symm n) 0 : Fin 8192) = p := congrFun e2 (0 : Fin 2)
      have a1 : ((S8192.rowMajor.symm n) 0 : Fin 8192) = q := congrFun e2 (1 : Fin 2)
      exact hpq (a0.symm.trans a1)

end Cert.RefDiag

end
-- ==== Proof.Bridge.lean ====
/-
  The two results are one function of the arguments.  The kernel's scalar is its result cell, which holds the
  specification's loss (0 − N) / (8192 · √D); the reference's scalar is −(N / (8192 · √D)).  The denominator sum is at
  least 1, so 8192 · √D is not zero, and then the two quotients are equal: (0 − a) · b⁻¹ = −(a · b⁻¹).
-/
import proofs.«130531_j39487929319478_1_alg».proof.Proof.KernelValue
import proofs.«130531_j39487929319478_1_alg».proof.Proof.EntryArrays
import proofs.«130531_j39487929319478_1_alg».proof.Proof.RefChain
import proofs.«130531_j39487929319478_1_alg».proof.Proof.RefDiag
import proofs.«130531_j39487929319478_1_alg».proof.Proof.SpecLaws

set_option maxRecDepth 16384

noncomputable section

namespace Cert.Bridge

open Idealize.ShloMosaic Idealize.ShloMosaic.TcCoe Idealize.SL.Sem Idealize.ShloMosaic.ValueIdx

/-- The kernel's scalar result on core `c`: its result cell reshaped. -/
def resultOf (m : (ℓ : Loc Cert.KernelIdeal.nD Cert.KernelIdeal.τ Cert.KernelIdeal.sig) → Buf (Elt Ideal) ℓ) (c : Dev Cert.KernelIdeal.nD) :
    (⟨Cert.KernelIdeal.S_, .f32⟩ : BufTy).Contents (Elt Ideal) :=
  shapeCast Cert.KernelIdeal.S_ (Cert.KernelIdeal.Gen.resultCell m c) Cert.KernelIdeal.Facts₀.shapeCasts_S1x1_S_

/-- The staged arrays are the specification's. -/
theorem entry (m : (ℓ : Loc Cert.KernelIdeal.nD Cert.KernelIdeal.τ Cert.KernelIdeal.sig) → Buf (Elt Ideal) ℓ) (c : Dev Cert.KernelIdeal.nD) :
    Cert.KernelIdeal.Gen.Entry m c :=
  ⟨Cert.KernelIdeal.Entry.v4_apply m c, Cert.KernelIdeal.Entry.v7_apply m c, Cert.KernelIdeal.Entry.v8_apply m c,
    Cert.KernelIdeal.Entry.v9_apply m c, Cert.KernelIdeal.Entry.v10_apply m c⟩

/-- The kernel's scalar is the specification's loss. -/
theorem kernel_loss (m : (ℓ : Loc Cert.KernelIdeal.nD Cert.KernelIdeal.τ Cert.KernelIdeal.sig) → Buf (Elt Ideal) ℓ) (c : Dev Cert.KernelIdeal.nD) :
    resultOf m c ix0 = Cert.Spec.loss (Cert.KernelIdeal.Gen.argX m c) (Cert.KernelIdeal.Gen.argT m c) (Cert.KernelIdeal.Gen.argP m c) := by
  unfold resultOf
  refine (shapeCast_apply _ Cert.KernelIdeal.Facts₀.shapeCasts_S1x1_S_ ix0 (ix2 (0 : Fin 1) (0 : Fin 1)) ((Fin.val_eq_zero _).trans (Fin.val_eq_zero _).symm)).trans ?_
  exact Cert.KernelIdeal.Gen.result_loss (entry m c)

/-- The reference's scalar is the same loss. -/
theorem reference_loss (x0 : (⟨Cert.ReferenceIdeal.S8192x64, .f32⟩ : BufTy).Contents (Elt Ideal)) (x1 : (⟨Cert.ReferenceIdeal.S8192, .f32⟩ : BufTy).Contents (Elt Ideal))
    (x2 : (⟨Cert.ReferenceIdeal.S64, .f32⟩ : BufTy).Contents (Elt Ideal)) :
    Cert.ReferenceIdeal.Read.val_main_v49 (F := Ideal) x0 x1 x2 ix0 = Cert.Spec.loss x0 x1 x2 := by
  rw [Cert.RefChain.ref_value x0 x1 x2 (Cert.RefDiag.val_main_v36_apply x0 x2)]
  unfold Cert.Spec.loss
  exact (Cert.Spec.div_zero_sub _ _ (Cert.Spec.scale_ne_zero x0 x2)).symm

/-- From memories agreeing on the arguments the reference's result is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v49 (F := Ideal) m' c = resultOf m c := by
  rw [Cert.ReferenceIdeal.Read.val_main_v49_eq, h0, h1, h2]
  funext j
  rw [eq_ix0 j, kernel_loss m c]
  exact reference_loss _ _ _

end Cert.Bridge

end
-- ==== Proof.lean ====
/-
  The pairwise-kernel alignment loss, kernel against reference.

  Both programs scale the rows of X by the square roots of the parameters, form K(p,q) = exp(0 - max(|x_p|² + |x_q|² - 2 x_p·x_q, 0))
  with the diagonal set to one, and return minus the sum of K(p,q) t_p t_q over 8192 · the square root of the sum of K(p,q)².
  The kernel walks the 8 × 8 tiles of the pair space in order, adding each tile's two sums into two cells that it carries from
  tile to tile, and writes the result at the last tile.

  The value: the kernel's result cell holds (0 − N) / (8192 · √D) for the numerator and denominator sums N, D over all pairs
  (its 64 tile sums are the sums over all pairs, each pair once); the reference's result is −(N / (8192 · √D)); D ≥ 1, so the two agree.

  The three frames: the kernel's, at both instances, carries the two cells from tile to tile and holds half of the scaled-input array
  for each of the two windows that read it; the reference is a straight line of host operations.  No operation is rewritten by the idealization, so there is nothing to preserve.
-/
import proofs.«130531_j39487929319478_1_alg».proof.Defs
import proofs.«130531_j39487929319478_1_alg».proof.Proof.WordLaunch
import proofs.«130531_j39487929319478_1_alg».proof.Proof.IdealLaunch
import proofs.«130531_j39487929319478_1_alg».proof.Proof.Bridge
import proofs.«130531_j39487929319478_1_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.Bridge.resultOf m c, Cert.KernelIdeal.Gen.run_value m ρ,
    (θ_run Cert.ReferenceIdeal.defs _ _).mono (fun _ h c => ⟨(h c).1.trans (Cert.Bridge.results_agree m m' c (hagree c).1 (hagree c).2.1 (hagree c).2.2), (h c).2⟩)
      (Cert.ReferenceIdeal.Value.run (F := Ideal) m' ρ')⟩⟩

end Cert.Proof

end
